-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200x128 : Shape := ⟨3, ![4096, 200, 128]⟩
abbrev S4096 : Shape := ⟨1, ![4096]⟩
abbrev S_ : Shape := ⟨0, ![]⟩

class Facts : Prop where
  bcast_S_S4096x200x128 : S_.BroadcastsInDim S4096x200x128 (![] : Fin 0 → Fin S4096x200x128.rank)
  reducesTo_S4096x200x128_S_d0_1_2 : S4096x200x128.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x200x128 .f32) (main_arg1 : IVec S4096 32) : IVec S_ 1 :=
  let main_v0 : FVec F S4096x200x128 .f32 := Host.absf main_arg0
  let main_cst : FVec F S_ .f32 := constant S_ .f32 0x7F800000#32
  let main_v1 : FVec F S4096x200x128 .f32 := broadcastInDim S4096x200x128 ![] bcast_S_S4096x200x128 main_cst
  let main_v2 : IVec S4096x200x128 1 := cmpf .olt main_v0 main_v1
  let main_c : IVec S_ 1 := constantI S_ 1 1#1
  let main_v3 : IVec S_ 1 := (fun x v => Host.reduce IntOp.andi x v reducesTo_S4096x200x128_S_d0_1_2 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 199#32
  let main_v6 : IVec S4096 32 := broadcastInDim S4096 ![] bcast_S_S4096 main_c_1
  let main_v7 : IVec S4096 1 := cmpi .sle main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x200x128 : Shape := ⟨3, ![4096, 200, 128]⟩
abbrev S4096 : Shape := ⟨1, ![4096]⟩
abbrev S819200x128 : Shape := ⟨2, ![819200, 128]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S16 : Shape := ⟨1, ![16]⟩

abbrev nBuf : Table → Nat
  | .hbm => 4
  | .local .scVector .vmem => 2
  | _ => 0

abbrev bufTy : (tb : Table) → Fin (nBuf tb) → BufTy
  | .hbm, ⟨0, _⟩ => ⟨S4096x200x128, .f32⟩
  | .hbm, ⟨1, _⟩ => ⟨S4096, .i32⟩
  | .hbm, ⟨2, _⟩ => ⟨S819200x128, .f32⟩
  | .hbm, ⟨3, _⟩ => ⟨S4096x128, .f32⟩
  | .local .scVector .vmem, ⟨0, _⟩ => ⟨S128, .i32⟩
  | .local .scVector .vmem, ⟨1, _⟩ => ⟨S128x128, .f32⟩
  | _, _ => ⟨S4096x200x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_20_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200x128_S819200x128 : S4096x200x128.ShapeCasts S819200x128
  iota_S16_d0_w32_scVector : S16.Iotas .scVector 32 [0]
  inb_S128_S16_0 : ∀ a, (![0] : Fin 1 → Nat) a + S16.size a ≤ S128.size a
  h_S16 : 0 < S16.numel
  shapeCasts_S16_S16 : S16.ShapeCasts S16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S819200x128_S819200x128_0_0 : ∀ a, (![0, 0] : Fin 2 → Nat) a + S819200x128.size a ≤ S819200x128.size a
  gathers_S819200x128_S128x128 : S819200x128.Gathers 0 S128x128
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128.size a ≤ S4096.size a
  k0_off2_inb : ∀ i : grid0.Coords, ∀ a, (k0_off2 i) a + S128x128.size a ≤ S4096x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S4096x200x128 : Shape := ⟨3, ![4096, 200, 128]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4096x128 : Shape := ⟨2, ![4096, 128]⟩

abbrev nBuf : Space → Nat
  | .hbm => 21
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S4096, .i32⟩
  | .hbm, ⟨2, _⟩ => ⟨S4096, .i32⟩
  | .hbm, ⟨3, _⟩ => ⟨S_, .i32⟩
  | .hbm, ⟨4, _⟩ => ⟨S4096, .i32⟩
  | .hbm, ⟨5, _⟩ => ⟨S4096, .i1⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S4096, .i32⟩
  | .hbm, ⟨17, _⟩ => ⟨S4096x1, .i32⟩
  | .hbm, ⟨18, _⟩ => ⟨S4096x1, .i32⟩
  | .hbm, ⟨19, _⟩ => ⟨S4096x2, .i32⟩
  | .hbm, ⟨20, _⟩ => ⟨S4096x128, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  gather_S4096x200x128_S4096x2_S4096x128_1_01_n_n_01_1_11128_wf : GatherDims.WF S4096x200x128 S4096x2 S4096x128 [1] [0, 1] [] [0, 1] [] 1 ![1, 1, 128]

variable [Facts₀]

def gather_S4096x200x128_S4096x2_S4096x128_1_01_n_n_01_1_11128 : GatherDims S4096x200x128 S4096x2 S4096x128 where
  offsetDims := [1]
  collapsedSliceDims := [0, 1]
  operandBatchingDims := []
  startIndicesBatchingDims := []
  startIndexMap := [0, 1]
  indexVectorDim := 1
  sliceSizes := ![1, 1, 128]
  wf := gather_S4096x200x128_S4096x2_S4096x128_1_01_n_n_01_1_11128_wf

class Facts : Prop extends Facts₀ where

variable [Facts]
-- ==== Proof.LibOwnSplit.lean ====
/-
  A SparseCore thread's own scoped semaphore cells and own buffers, with a chosen LIST of them pulled out in front:
  `bigSep` over the whole family is the chain over the listed members, one by one, and the `bigSep` over the rest.
-/
import Idealize.ShloMosaic.Lib.SparseCore.Launch
import Idealize.ShloMosaic.Lib.Pipeline.Kit

noncomputable section

namespace Cert.Lib.OwnSplit

open Idealize.ShloMosaic
open Idealize.ShloMosaic.SparseCore.Cfg (ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The chain over a mapped list is the chain over the list of the composed family. -/
theorem bigSepL_map {I J : Type} {M : Type} [URA M] (f : I → J) (l : List I) (Φ : J → sProp M) :
    bigSepL (l.map f) Φ = bigSepL l (fun i => Φ (f i)) := by
  induction l with
  | nil => rfl
  | cons i l ih => rw [List.map_cons, bigSepL_cons, bigSepL_cons, ih]

/-- A family over a finite set with a duplicate-free list of its members in front. -/
theorem bigSep_split_list {I : Type} [DecidableEq I] {M : Type} [URA M] (s : Finset I) (l : List I) (hl : l.Nodup) (hs : ∀ i ∈ l, i ∈ s)
    (Φ : I → sProp M) : bigSep s Φ = iprop(bigSepL l Φ ∗ bigSep (s \ l.toFinset) Φ) := by
  rw [BI.bigSep_sdiff_split (t := l.toFinset) (fun i hi => hs i (List.mem_toFinset.mp hi)), bigSep_eq_bigSepL l hl Φ]; rfl

/-- A thread's own scoped cells at zero, the listed ones in front. -/
theorem ownSems0_split (thr : Thread nD τ) (l : List (SemLoc sig)) (hl : l.Nodup)
    (hs : ∀ s ∈ l, s.isScoped thr.2.kind = true) :
    (ownSems0 thr : sProp 𝕄)
      = iprop(bigSepL l (fun s => semVal ((thr, s) : GSem nD τ sig) 0)
          ∗ bigSep (ownCells thr \ (l.map fun s => ((thr, s) : GSem nD τ sig)).toFinset) fun g => semVal g 0) := by
  unfold SparseCore.Cfg.ownSems0
  rw [bigSep_split_list (ownCells thr) (l.map fun s => ((thr, s) : GSem nD τ sig))
      (hl.map (fun a b e => (Prod.mk.inj e).2))
      (fun g hg => by
        obtain ⟨s, hsl, rfl⟩ := List.mem_map.mp hg
        exact mem_ownCells.mpr ⟨rfl, hs s hsl⟩),
    bigSepL_map]

/-- A thread's own buffers, each whole at some contents, the listed ones in front. -/
theorem ownBufs_split (thr : Thread nD τ) (l : List (DevRef τ sig)) (hl : l.Nodup) (hs : ∀ b ∈ l, b.owner.home = thr.2) :
    (ownBufs thr : sProp 𝕄)
      = iprop(bigSepL l (fun b => iprop(∃ f, ((thr.1, b) : Loc nD τ sig) ↦{fullShare} f))
          ∗ bigSep (ownRefs thr.2 \ l.toFinset) fun b => iprop(∃ f, ((thr.1, b) : Loc nD τ sig) ↦{fullShare} f)) := by
  unfold SparseCore.Cfg.ownBufs
  exact bigSep_split_list (ownRefs thr.2) l hl (fun b hb => mem_ownRefs.mpr (hs b hb)) _

end Cert.Lib.OwnSplit

end
-- ==== Proof.LibTileDeal.lean ====
/-
  An array dealt to the thirty-two tiles of two SparseCores, and a read-only array's share dealt likewise.

  Two SparseCores of sixteen tiles each work on an array side by side. Where every tile has its own part —
  the array cut into thirty-two equal parts along one axis, tile i of SparseCore c taking part number 2 i + c —
  a points-to of the whole array is the separating product of the thirty-two parts', at any one contents; read
  back at other contents it is how the tiles' results, each the restriction of ONE whole-array function, join
  into the array at that function. Where every tile may read all of the array, a share q of it is dealt as a
  read token per SparseCore, each dealt again as a read token per tile; what is left over at either level stays
  with whoever dealt.
-/
import Idealize.ShloMosaic.Lib.Transfers

noncomputable section

namespace Idealize.ShloMosaic.Transfers

open Idealize.SL
open Idealize.SL.BI (sProp bigSep bigSep_congr bigSep_univ_prod)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

/-- Tile `i` of SparseCore `c` is number `2 i + c` of the thirty-two. -/
def tileNo (c : Fin 2) (i : Fin 16) : Fin 32 := ⟨2 * i.val + c.val, by omega⟩

theorem tileNo_val (c : Fin 2) (i : Fin 16) : (tileNo c i).val = 2 * i.val + c.val := rfl

theorem tileNo_inj {c c' : Fin 2} {i i' : Fin 16} (h : tileNo c i = tileNo c' i') : c = c' ∧ i = i' := by
  have := congrArg Fin.val h
  simp only [tileNo_val] at this
  exact ⟨Fin.ext (by omega), Fin.ext (by omega)⟩

theorem tileNo_surj (k : Fin 32) : ∃ c i, tileNo c i = k :=
  ⟨⟨k.val % 2, Nat.mod_lt _ (by omega)⟩, ⟨k.val / 2, by omega⟩, Fin.ext (by simp only [tileNo_val]; omega)⟩

section Deal

variable {ℓ : Loc nD τ sig} {q : PosShare TreeShare}

/-- An array whose elements are dealt to the tiles, a set of them to each, pairwise disjoint and covering it: its
    points-to at contents `f` is the tiles' points-tos, each on its set at `f`. -/
theorem pointsTo_tiles (A : Fin 2 → Fin 16 → Finset (Idx ℓ))
    (hdisj : ∀ c i c' i', (c, i) ≠ (c', i') → Disjoint (A c i) (A c' i'))
    (hcov : ∀ x : Idx ℓ, ∃ c i, x ∈ A c i) (f : Buf Val ℓ) :
    (ℓ ↦{q} f : sProp 𝕄) = bigSep Finset.univ fun c : Fin 2 => bigSep Finset.univ fun i : Fin 16 => ℓ ↦[A c i]{q} f := by
  rw [← bigSep_univ_prod (fun p : Fin 2 × Fin 16 => (ℓ ↦[A p.1 p.2]{q} f : sProp 𝕄)),
    ← pointsTo_biUnion Finset.univ (fun p : Fin 2 × Fin 16 => A p.1 p.2) fun p _ p' _ h => hdisj p.1 p.2 p'.1 p'.2 h]
  congr 1
  ext x
  simp only [Finset.mem_univ, Finset.mem_biUnion, true_and, true_iff]
  obtain ⟨c, i, h⟩ := hcov x
  exact ⟨(c, i), h⟩

/-- The thirty-two equal parts of a shape along an axis, numbered by the tiles, are pairwise disjoint -/
theorem tileParts_disjoint {s : Shape} {a₀ : Fin s.rank} (hdiv : 32 ∣ s.size a₀) (c : Fin 2) (i : Fin 16) (c' : Fin 2) (i' : Fin 16)
    (h : (c, i) ≠ (c', i')) : Disjoint (Rect.part hdiv (tileNo c i)).set (Rect.part hdiv (tileNo c' i')).set :=
  Rect.part_disjoint hdiv fun e => h (by obtain ⟨h1, h2⟩ := tileNo_inj e; rw [h1, h2])

/-- and cover it. -/
theorem tileParts_cover {s : Shape} {a₀ : Fin s.rank} (hdiv : 32 ∣ s.size a₀) (x : s.Idx) : ∃ c i, x ∈ (Rect.part hdiv (tileNo c i)).set := by
  obtain ⟨k, hk⟩ := Rect.exists_mem_part hdiv x
  obtain ⟨c, i, rfl⟩ := tileNo_surj k
  exact ⟨c, i, hk⟩

/-- A share `q` of an array every tile reads: a token per SparseCore, of it a token per tile, and what is left at
    each level. -/
theorem pointsTo_deal (S : Finset (Idx ℓ)) (f : Buf Val ℓ) :
    (ℓ ↦[S]{q} f : sProp 𝕄) = iprop((ℓ ↦[S]{shareDrop q 2} f)
      ∗ bigSep Finset.univ fun c : Fin 2 => iprop((ℓ ↦[S]{shareDrop (shareTok q 2 c) 16} f)
          ∗ bigSep Finset.univ fun i : Fin 16 => ℓ ↦[S]{shareTok (shareTok q 2 c) 16 i} f)) := by
  have h2 := pointsTo_toks (Ix := Ix) (Name := Name) (U := U) (Lvl := Lvl) (ℓ := ℓ) (S := S) (f := f) q 2
  rw [BI.equiv_iff.mp ⟨h2.1, h2.2⟩]
  congr 1
  exact bigSep_congr fun c _ => by
    have h16 := pointsTo_toks (Ix := Ix) (Name := Name) (U := U) (Lvl := Lvl) (ℓ := ℓ) (S := S) (f := f) (shareTok q 2 c) 16
    exact BI.equiv_iff.mp ⟨h16.1, h16.2⟩

end Deal

end Idealize.ShloMosaic.Transfers

end
-- ==== Proof.KSetup.lean ====
/-
  The gather kernel as the SparseCore launch theorem sees it: the program's configuration, the ghost state (the
  handshakes' rounds beside the local transfers' counters), the three arrays in HBM and each tile's two scratch
  buffers as the kernel's body names them, and the numbering of the thirty-two tiles.

  Tile s of SparseCore c is worker number w = 2 s + c. It owns entries [128 w, 128 w + 128) of the index list and
  rows [128 w, 128 w + 128) of the result; every tile reads the whole table (the input array seen as 819200 rows
  of 128 numbers).
-/
import proofs.«207438_g72335839200081_cont_9to1_m_70_8_alg».proof.Kernel
import proofs.«207438_g72335839200081_cont_9to1_m_70_8_alg».proof.Proof.Gen.Kernel
import proofs.«207438_g72335839200081_cont_9to1_m_70_8_alg».proof.Proof.Gen.Kernel.Skeleton
import proofs.«207438_g72335839200081_cont_9to1_m_70_8_alg».proof.Proof.LibOwnSplit
import proofs.«207438_g72335839200081_cont_9to1_m_70_8_alg».proof.Proof.LibTileDeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays and the scratch buffers -/

/-- The input array, the index list, the table (the input array re-laid as rows) and the result, on device d. -/
abbrev sLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-- The same arrays as a tile's body names them. -/
abbrev tabV : Memref sig .scVector .hbm S819200x128 .f32 := Memref.whole main_v0_scv
abbrev idxV : Memref sig .scVector .hbm S4096 .i32 := Memref.whole main_arg1_scv
abbrev outV : Memref sig .scVector .hbm S4096x128 .f32 := Memref.whole main_v1_scv
/-- A tile's scratch: its 128 index words, its 128 gathered rows. -/
abbrev sI : Memref sig .scVector .vmem S128 .i32 := Memref.whole cc0_scratch0
abbrev sR : Memref sig .scVector .vmem S128x128 .f32 := Memref.whole cc0_scratch1

/-- The tile a grid point names. -/
abbrev cV (L : grid0.Coords) : Fin τ.nSC := (L 0).castLE hcore0
abbrev jV (L : grid0.Coords) : Fin τ.nSub := (L 1).castLE hsub0

/-- The tile's part of the index list and of the result, as its body slices them. -/
abbrev iSl (L : grid0.Coords) : Memref sig .scVector .hbm S128 .i32 :=
  (idxV : Memref sig .scVector .hbm S4096 .i32).slice (Rect.unit (s := S4096) (k0_off1 L) S128.size (k0_off1_inb L)) (fun _ => rfl)
abbrev oSl (L : grid0.Coords) : Memref sig .scVector .hbm S128x128 .f32 :=
  (outV : Memref sig .scVector .hbm S4096x128 .f32).slice (Rect.unit (s := S4096x128) (k0_off2 L) S128x128.size (k0_off2_inb L)) (fun _ => rfl)

end Cert.Proof.KernelFrame

end
-- ==== Proof.KIdx.lean ====
/-
  The index list a tile builds, entry by entry.

  Worker w (tile s of SparseCore c, w = 2 s + c) copies entries [128 w, 128 w + 128) of the index list into its
  scratch and adds to entry j (j = 16 k + l, chunk k, lane l) the word (128 w + 16 k) · 200 + l · 200, all in 32-bit
  arithmetic. Where the copied word p is at most 199 nothing wraps and the entry's value is
      (128 w + j) · 200 + p  <  819200,
  the number of row p of batch 128 w + j in the table of 4096 · 200 rows.
-/
import proofs.«207438_g72335839200081_cont_9to1_m_70_8_alg».proof.Proof.KSetup
import Idealize.ShloMosaic.Lib.Pipeline.Value

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The worker's number and its base word -/

/-- Worker number of a grid point: tile (L 1) of SparseCore (L 0). -/
def wNo (L : grid0.Coords) : Nat := 2 * (L 1).val + (L 0).val

theorem L0_lt (L : grid0.Coords) : (L 0).val < 2 := (L 0).isLt
theorem L1_lt (L : grid0.Coords) : (L 1).val < 16 := (L 1).isLt
theorem wNo_lt (L : grid0.Coords) : wNo L < 32 := by have := L0_lt L; have := L1_lt L; unfold wNo; omega

/-- The word 128 w as the body computes it. -/
def baseWord (L : grid0.Coords) : BitVec 32 :=
  Scalar.muli (Scalar.addi (Scalar.muli (BitVec.ofNat 32 (L 1).val) 2#32) (BitVec.ofNat 32 (L 0).val)) 128#32

theorem baseWord_toNat (L : grid0.Coords) : (baseWord L).toNat = 128 * wNo L := by
  have := L0_lt L; have := L1_lt L
  unfold baseWord wNo Scalar.muli Scalar.addi IntOp.muli IntOp.addi
  simp only [BitVec.toNat_mul, BitVec.toNat_add, BitVec.toNat_ofNat]
  omega

/-! ## The list after the additions -/

/-- Entry y of the list after the eight additions, from the copied words. -/
def newIdx (L : grid0.Coords) (src : S128.Idx → BitVec 32) : S128.Idx → BitVec 32 := fun y =>
  src y + ((baseWord L + BitVec.ofNat 32 (16 * ((y 0).val / 16))) * 200#32 + BitVec.ofNat 32 ((y 0).val % 16) * 200#32)

theorem newIdx_toNat (L : grid0.Coords) (src : S128.Idx → BitVec 32) (y : S128.Idx) (h : (src y).toNat ≤ 199) :
    (newIdx L src y).toNat = (128 * wNo L + (y 0).val) * 200 + (src y).toNat := by
  have hw := wNo_lt L
  have hy : (y 0).val < 128 := (y 0).isLt
  have hb := baseWord_toNat L
  unfold newIdx
  simp only [BitVec.toNat_mul, BitVec.toNat_add, BitVec.toNat_ofNat, hb]
  omega

theorem newIdx_lt (L : grid0.Coords) (src : S128.Idx → BitVec 32) (y : S128.Idx) (h : (src y).toNat ≤ 199) :
    (newIdx L src y).toNat < 819200 := by
  have hw := wNo_lt L
  have hy : (y 0).val < 128 := (y 0).isLt
  rw [newIdx_toNat L src y h]; omega

/-- Chunk k of the list as the body stores it — the sixteen loaded words plus the chunk's base word times 200 plus the
    lane numbers times 200 — is the list's entries under the chunk's rectangle. -/
theorem chunk_eq (L : grid0.Coords) (k : Nat) (hk : k < 8)
    (hin : ∀ a, (![16 * k] : Fin 1 → Nat) a + S16.size a ≤ S128.size a)
    (f : S128.Idx → BitVec 32) (x : S16.Idx) :
    (addi (fun j => f ((Rect.unit (s := S128) ![16 * k] S16.size hin).emb j))
        (addi (broadcast S16 (Scalar.muli (Scalar.addi (baseWord L) (BitVec.ofNat 32 (16 * k))) 200#32))
          (muli (iota .scVector S16 32 [0] iota_S16_d0_w32_scVector) (broadcast S16 200#32)))) x
      = newIdx L f ((Rect.unit (s := S128) ![16 * k] S16.size hin).emb x) := by
  have hx : (x 0).val < 16 := (x 0).isLt
  have he : ((Rect.unit (s := S128) ![16 * k] S16.size hin).emb x 0).val = 16 * k + (x 0).val := by
    rw [Rect.emb_apply]; simp [Rect.unit]
  unfold newIdx addi muli broadcast iota IntOp.addi IntOp.muli Scalar.muli Scalar.addi IntOp.muli IntOp.addi
  rw [he]
  have h1 : (16 * k + (x 0).val) / 16 = k := by omega
  have h2 : (16 * k + (x 0).val) % 16 = (x 0).val := by omega
  rw [h1, h2]
  simp

/-- The same with the two shape casts of a 16-vector to itself that the body prints around the sum. -/
theorem piece_eq (L : grid0.Coords) (k : Nat) (hk : k < 8)
    (hin : ∀ a, (![16 * k] : Fin 1 → Nat) a + S16.size a ≤ S128.size a)
    (f : S128.Idx → BitVec 32) (x : S16.Idx) (h1 h2 : S16.ShapeCasts S16) :
    shapeCast S16 (addi (shapeCast S16 (fun j => f ((Rect.unit (s := S128) ![16 * k] S16.size hin).emb j)) h1)
        (addi (broadcast S16 (Scalar.muli (Scalar.addi (baseWord L) (BitVec.ofNat 32 (16 * k))) 200#32))
          (muli (iota .scVector S16 32 [0] iota_S16_d0_w32_scVector) (broadcast S16 200#32)))) h2 x
      = newIdx L f ((Rect.unit (s := S128) ![16 * k] S16.size hin).emb x) := by
  rw [shapeCast_self]
  have e : shapeCast S16 (fun j => f ((Rect.unit (s := S128) ![16 * k] S16.size hin).emb j)) h1
      = fun j => f ((Rect.unit (s := S128) ![16 * k] S16.size hin).emb j) := shapeCast_self (s := S16) _ h1
  rw [e]
  exact chunk_eq L k hk hin f x

end Cert.Proof.KernelFrame

end
-- ==== Proof.Spec.lean ====
/-
  What both programs compute, as one function of the two argument arrays.

  The arguments are a three-axis array `seq` of 4096 batches of 200 rows of 128 numbers and a list `pos` of 4096
  integer words, one per batch. The result has, for batch b, the row of batch b that `pos` names for it:
      picked seq pos (b, c) = seq (b, pos b, c).
  The row number is read as the word's value modulo 200, which makes the function total; where every word is at most
  199 (the stated domain of the claim) that is the word's own value.
-/
import Idealize.ShloMosaic.Lib.ValueIdx

namespace Cert.Spec

open Idealize.ShloMosaic Idealize.ShloMosaic.ValueIdx

/-- The row a batch's word names: the word's value, modulo the 200 rows of a batch. -/
def rowOfWord (w : BitVec 32) : Fin 200 := ⟨w.toNat % 200, Nat.mod_lt _ (by decide)⟩

theorem rowOfWord_val_of_le {w : BitVec 32} (h : w.toNat ≤ 199) : (rowOfWord w).val = w.toNat :=
  Nat.mod_eq_of_lt (by omega)

/-- Batch b's chosen row, number by number. -/
def picked {α : Type} (seq : (⟨3, ![4096, 200, 128]⟩ : Shape).Idx → α) (pos : (⟨1, ![4096]⟩ : Shape).Idx → BitVec 32) :
    (⟨2, ![4096, 128]⟩ : Shape).Idx → α :=
  fun x => seq (ix3 (x 0) (rowOfWord (pos (ix1 (x 0)))) (x 1))

theorem picked_apply {α : Type} (seq : (⟨3, ![4096, 200, 128]⟩ : Shape).Idx → α) (pos : (⟨1, ![4096]⟩ : Shape).Idx → BitVec 32)
    (b : Fin 4096) (c : Fin 128) :
    picked seq pos (ix2 b c) = seq (ix3 b (rowOfWord (pos (ix1 b))) c) := rfl

/-! ## The same through the table of rows

  Seen as a table of 4096 · 200 = 819200 rows of 128 numbers (batch b's row p is table row 200 b + p), the result's row b
  is table row 200 b + pos b. -/

/-- The table row of batch b's row named by the word w. -/
def tableRow (b : Fin 4096) (w : BitVec 32) : Fin 819200 :=
  ⟨b.val * 200 + (rowOfWord w).val, by have := b.isLt; have := (rowOfWord w).isLt; omega⟩

theorem tableRow_val (b : Fin 4096) (w : BitVec 32) : (tableRow b w).val = b.val * 200 + w.toNat % 200 := rfl

/-- Row b of the result read off the table. -/
def pickedRows {α : Type} (tab : (⟨2, ![819200, 128]⟩ : Shape).Idx → α) (pos : (⟨1, ![4096]⟩ : Shape).Idx → BitVec 32) :
    (⟨2, ![4096, 128]⟩ : Shape).Idx → α :=
  fun x => tab (ix2 (tableRow (x 0) (pos (ix1 (x 0)))) (x 1))

end Cert.Spec
-- ==== Proof.KBody.lean ====
/-
  One tile's task, at a symbolic grid point.

  Worker w holds, for the duration of its task, a read share of the table, entries [128 w, 128 w + 128) of the index
  list and rows [128 w, 128 w + 128) of the result, with its two scratch buffers and its three DMA semaphores at zero.
  It copies its entries into the index scratch, adds to entry j the word (128 w + j) · 200 (so that the entry names
  row pos(128 w + j) of batch 128 w + j in the table), gathers the 128 named table rows into the row scratch, and copies
  them out to its rows of the result. Every entry is below 819200 because every word of the list is at most 199, so
  the gather is served in full; and row j of what is copied out is table row (128 w + j) · 200 + pos(128 w + j):
  the tile's rows of the result end at the one whole-array function `Cert.Spec.pickedRows`.
-/
import proofs.«207438_g72335839200081_cont_9to1_m_70_8_alg».proof.Proof.KIdx
import proofs.«207438_g72335839200081_cont_9to1_m_70_8_alg».proof.Proof.Spec

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- The tile's thread. -/
abbrev thr : Thread nD τ := V d (cV L) (jV L)

/-! ## The thirty-two parts of the index list and of the result -/

theorem hdivI : 32 ∣ S4096.size 0 := ⟨128, rfl⟩
theorem hdivO : 32 ∣ S4096x128.size 0 := ⟨128, rfl⟩
abbrev iPart (t : Fin 32) : Rect S4096 := Rect.part (s := S4096) (a₀ := 0) hdivI t
abbrev oPart (t : Fin 32) : Rect S4096x128 := Rect.part (s := S4096x128) (a₀ := 0) hdivO t
abbrev iSet (t : Fin 32) : Finset S4096.Idx := ((idxV : Memref sig .scVector .hbm S4096 .i32).view.slice (iPart t)).set
abbrev oSet (t : Fin 32) : Finset S4096x128.Idx := ((outV : Memref sig .scVector .hbm S4096x128 .f32).view.slice (oPart t)).set

/-- The worker's number as one of the thirty-two. -/
def tn (L : grid0.Coords) : Fin 32 := ⟨wNo L, wNo_lt L⟩

omit [FloatOps F] in
theorem iRect_eq : Rect.unit (s := S4096) (k0_off1 L) S128.size (k0_off1_inb L) = iPart (tn L) := by
  unfold iPart Rect.part Rect.block
  congr 1 <;> funext a
  · rw [k0_off1_eq]
    match a with
    | 0 => simp [Shape.partIx, Shape.partSize, tn, wNo]; omega
  · match a with
    | 0 => simp [Shape.partSize]
omit [FloatOps F] in
theorem oRect_eq : Rect.unit (s := S4096x128) (k0_off2 L) S128x128.size (k0_off2_inb L) = oPart (tn L) := by
  unfold oPart Rect.part Rect.block
  congr 1 <;> funext a
  · rw [k0_off2_eq]
    match a with
    | 0 => simp [Shape.partIx, Shape.partSize, tn, wNo]; omega
    | 1 => simp [Shape.partIx, Shape.partSize]
  · match a with
    | 0 => simp [Shape.partSize]
    | 1 => simp [Shape.partSize]

omit [FloatOps F] in
theorem set_iSl : (iSl L).view.set = iSet (tn L) := by
  show ((idxV : Memref sig .scVector .hbm S4096 .i32).view.slice (Rect.unit (s := S4096) (k0_off1 L) S128.size (k0_off1_inb L))).set = _
  rw [iRect_eq]
omit [FloatOps F] in
theorem set_oSl : (oSl L).view.set = oSet (tn L) := by
  show ((outV : Memref sig .scVector .hbm S4096x128 .f32).view.slice (Rect.unit (s := S4096x128) (k0_off2 L) S128x128.size (k0_off2_inb L))).set = _
  rw [oRect_eq]

/-! ## The buffers as the body addresses them -/

omit [FloatOps F] in
theorem pts_tab (q : PosShare TreeShare) (f : Buf (Elt F) (tLoc d)) :
    ((tabV : Memref sig .scVector .hbm S819200x128 .f32).view.loc (thr d L) ↦{q} f : sProp 𝕄) = tLoc d ↦{q} f := rfl
omit [FloatOps F] in
theorem pts_iSl (f : Buf (Elt F) (iLoc d)) :
    ((iSl L).view.loc (thr d L) ↦[(iSl L).view.set]{fullShare} f : sProp 𝕄) = iLoc d ↦[iSet (tn L)]{fullShare} f := by
  rw [set_iSl]
omit [FloatOps F] in
theorem pts_oSl (f : Buf (Elt F) (oLoc d)) :
    ((oSl L).view.loc (thr d L) ↦[(oSl L).view.set]{fullShare} f : sProp 𝕄) = oLoc d ↦[oSet (tn L)]{fullShare} f := by
  rw [set_oSl]
omit [FloatOps F] in
theorem pts_sI (f : Buf (Elt F) ((thr d L).loc cc0_scratch0)) :
    ((sI : Memref sig .scVector .vmem S128 .i32).view.loc (thr d L) ↦{fullShare} f : sProp 𝕄) = (thr d L).loc cc0_scratch0 ↦{fullShare} f := rfl
omit [FloatOps F] in
theorem pts_sR (f : Buf (Elt F) ((thr d L).loc cc0_scratch1)) :
    ((sR : Memref sig .scVector .vmem S128x128 .f32).view.loc (thr d L) ↦{fullShare} f : sProp 𝕄) = (thr d L).loc cc0_scratch1 ↦{fullShare} f := rfl

omit [FloatOps F] in
theorem bigSepL_two {I : Type} (Φ : I → sProp 𝕄) (a b : I) : bigSepL [a, b] Φ = iprop(Φ a ∗ Φ b) := rfl
omit [FloatOps F] in
theorem bigSepL_three {I : Type} (Φ : I → sProp 𝕄) (a b c : I) : bigSepL [a, b, c] Φ = iprop(Φ a ∗ Φ b ∗ Φ c) := rfl

/-! ## What the gather fetches

  Row y of the tile's row scratch is table row g(y), the list's entry for y; that entry is (128 w + y) · 200 plus the
  word copied for it, which is the index list's word for row 128 w + y of the result; so the row is table row
  200 b + pos b for b = 128 w + y, the result's row b. -/

/-- The gathered rows, read at a row y and column of the scratch, are `Cert.Spec.pickedRows` at the result's index that
    the tile's copy-out gives (y, column). -/
theorem gathered_eq (ft : Buf (Elt F) (tLoc d)) (fi : Buf (Elt F) (iLoc d)) (hpos : ∀ b, (fi b).toNat ≤ 199)
    (g src : S128.Idx → BitVec 32) (hg' : ∀ y', g y' = newIdx L src y')
    (hsrc : ∀ z, src z = fi ((iSl L).view.emb z))
    (hn : S128.numel = S128x128.size gathers_S819200x128_S128x128.axis')
    (hin : ∀ x, (g x).toNat < S819200x128.size gathers_S819200x128_S128x128.axis) (y : S128x128.Idx) :
    SparseCore.gatherPayload gathers_S819200x128_S128x128
      (View.read (Elt F) ((tabV : Memref sig .scVector .hbm S819200x128 .f32).slice
        (Rect.unit (s := S819200x128) ![0, 0] S819200x128.size inb_S819200x128_S819200x128_0_0) (fun _ => rfl)).view ft)
      (SparseCore.rows (F := F) g hn hin) y
    = (Cert.Spec.pickedRows ft fi : Buf (Elt F) (oLoc d)) ((oSl L).view.emb y) := by
  have hL0 := L0_lt L
  have hL1 := L1_lt L
  -- the index under the tile's row y of the result
  have hz0 : (((oSl L).view.emb y) 0).val = 128 * wNo L + (y 0).val := by
    show (k0_off2 L) 0 + 1 * (y 0).val = _
    rw [k0_off2_eq]; simp [wNo]; omega
  have hz1 : (((oSl L).view.emb y) 1).val = (y 1).val := by
    show (k0_off2 L) 1 + 1 * (y 1).val = _
    rw [k0_off2_eq]; simp
  generalize (oSl L).view.emb y = z at hz0 hz1 ⊢
  -- the list entry that names the row
  obtain ⟨y', hy'⟩ : ∃ y' : S128.Idx, y' = S128.rowMajor.symm ((y gathers_S819200x128_S128x128.axis').cast hn.symm) := ⟨_, rfl⟩
  have hy0 : (y' 0).val = (y 0).val := by
    rw [← Shape.rowMajor_val_one y', hy', Equiv.apply_symm_apply]; rfl
  have hidx0 : ((gathers_S819200x128_S128x128.idx (SparseCore.rows (F := F) g hn hin) y) ⟨0, by decide⟩).val = (g y').toNat := by
    rw [hy']; unfold Shape.Gathers.idx; rw [dif_pos rfl]; rfl
  have hidx1 : ((gathers_S819200x128_S128x128.idx (SparseCore.rows (F := F) g hn hin) y) ⟨1, by decide⟩).val = (y 1).val := by
    unfold Shape.Gathers.idx; rw [dif_neg (by decide)]; rfl
  -- the word copied for that entry is the index list's word for the result's row
  have hw : (iSl L).view.emb y' = ValueIdx.ix1 (z 0) := by
    funext a
    match a with
    | ⟨0, _⟩ =>
      apply Fin.ext
      show (k0_off1 L) 0 + 1 * (y' 0).val = (z 0).val
      rw [k0_off1_eq, hz0, hy0]; simp [wNo]; omega
  have hs : (src y').toNat ≤ 199 := by rw [hsrc]; exact hpos _
  have hgv : (g y').toNat = (128 * wNo L + (y' 0).val) * 200 + (src y').toNat := by
    rw [hg']; exact newIdx_toNat L src y' hs
  unfold SparseCore.gatherPayload Cert.Spec.pickedRows
  show ft _ = ft _
  congr 1
  funext a
  apply Fin.ext
  match a with
  | ⟨0, _⟩ =>
    show 0 + 1 * ((gathers_S819200x128_S128x128.idx (SparseCore.rows (F := F) g hn hin) y) ⟨0, by decide⟩).val
      = (z 0).val * 200 + (fi (ValueIdx.ix1 (z 0))).toNat % 200
    have hle : (fi (ValueIdx.ix1 (z 0))).toNat ≤ 199 := hpos _
    rw [hidx0, hgv, hy0, hsrc, hw, hz0, Nat.mod_eq_of_lt (Nat.lt_of_le_of_lt hle (by decide)), Nat.zero_add, Nat.one_mul]
    rfl
  | ⟨1, _⟩ =>
    show 0 + 1 * ((gathers_S819200x128_S128x128.idx (SparseCore.rows (F := F) g hn hin) y) ⟨1, by decide⟩).val = (z 1).val
    rw [hidx1, hz1]; omega

/-! ## The task -/

/-- Worker `tn L`'s task: from a share of the table, its entries of the index list (every word at most 199) and its
    rows of the result, to the same with its rows of the result at `Cert.Spec.pickedRows` of the table and the list. -/
theorem tile_body (hF : (K (F := F)).Facts) (O : CellTallies nD τ sig (HIx 1)) (W : Waits sig (HIx 1)) (hO : ∀ g, O g none = 0)
    (q : PosShare TreeShare) (ft : Buf (Elt F) (tLoc d)) (fi : Buf (Elt F) (iLoc d)) (fo : Buf (Elt F) (oLoc d))
    (hpos : ∀ b, (fi b).toNat ≤ 199) :
    iprop(levAts (K (F := F)).L (K (F := F)).lev ∗ emp
        ∗ ((tLoc d ↦{q} ft) ∗ (iLoc d ↦[iSet (tn L)]{fullShare} fi) ∗ (oLoc d ↦[oSet (tn L)]{fullShare} fo))
        ∗ scopedBufs (thr d L) ∗ scopedSems0 (thr d L) ∗ owes (thr d L) O W)
      ⊢ wp frame (wpE (defs₀ (F := F)) 𝒱₀ (thr d L) none) Set.univ
          (cc0__gather_rows L tabV (Memref.isWhole_whole _) idxV (Memref.isWhole_whole _) outV (Memref.isWhole_whole _)
            sI (Memref.isWhole_whole _) sR (Memref.isWhole_whole _) cc0_scratch2 cc0_scoped0 cc0_scoped1)
          fun _ => (iprop(((tLoc d ↦{q} ft) ∗ (iLoc d ↦[iSet (tn L)]{fullShare} fi)
              ∗ (oLoc d ↦[oSet (tn L)]{fullShare} (Cert.Spec.pickedRows ft fi : Buf (Elt F) (oLoc d))))
            ∗ scopedBufs (thr d L) ∗ scopedSems0 (thr d L)
            ∗ ∃ W', ⌜∀ p ∈ W', p ∈ W ∨ p.2 = none⌝ ∗ owes (thr d L) O W') : sProp 𝕄) := by
  rw [cc0__gather_rows_eq_skeleton]; unfold cc0__gather_rows_skel
  rw [(K (F := F)).scopedBufs_V hF d (cV L) (jV L), SparseCore.Cfg.scopedSems0_V (Val := Elt F) d (cV L) (jV L),
    Cert.Lib.OwnSplit.ownSems0_split (Val := Elt F) (Ix := HIx 1) (Name := ℕ) (U := UU) (Lvl := ℕ) (thr d L) [SemLoc.dma cc0_scratch2.sem, SemLoc.dma cc0_scoped0.sem, SemLoc.dma cc0_scoped1.sem]
      (by decide)
      (fun s hs => by
        simp only [List.mem_cons, List.mem_nil_iff, or_false] at hs
        rcases hs with rfl | rfl | rfl <;> (show SemLoc.isScoped Kind.scVector _ = true) <;> decide),
    Cert.Lib.OwnSplit.ownBufs_split (Val := Elt F) (Ix := HIx 1) (Name := ℕ) (U := UU) (Lvl := ℕ) (thr d L) [(Proc.scVector (cV L) (jV L)).devRef cc0_scratch0, (Proc.scVector (cV L) (jV L)).devRef cc0_scratch1]
      (by simp) (by intro b hb; simp at hb; rcases hb with rfl | rfl <;> rfl)]
  rw [bigSepL_two, bigSepL_three]
  iintro ⟨#Hlv, -, ⟨Ht, Hi, Ho⟩, ⟨⟨⟨%fs, Hs⟩, ⟨%fr, Hr⟩⟩, Hbufs⟩, ⟨⟨Hs2, Hs0, Hs1⟩, Hsems⟩, HO⟩
  ihave Hmw := ((K (F := F)).mayWaits_none (thr := thr d L) hO) $$ Hlv
  ihave Ht := (Entails.of_eq (pts_tab (F := F) d L q ft).symm) $$ Ht
  ihave Hi := (Entails.of_eq (pts_iSl (F := F) d L fi).symm) $$ Hi
  ihave Ho := (Entails.of_eq (pts_oSl (F := F) d L fo).symm) $$ Ho
  ihave Hs := (Entails.of_eq (pts_sI (F := F) d L fs).symm) $$ Hs
  ihave Hr := (Entails.of_eq (pts_sR (F := F) d L fr).symm) $$ Hr
  sl_exec
  -- the index scratch after the copy and the eight additions, entry by entry
  have hf0 : (sI : Memref sig .scVector .vmem S128 .i32).view.read (Elt F) (View.write (Elt F) (sI : Memref sig .scVector .vmem S128 .i32).view fs (tile_body.sl.dma0 d L fi) Finset.univ)
      = tile_body.sl.dma0 d L fi := View.read_write_univ _ _
  have hG : ∀ y, (sI : Memref sig .scVector .vmem S128 .i32).view.read (Elt F) ((sI : Memref sig .scVector .vmem S128 .i32).view.writes (Elt F) (sI : Memref sig .scVector .vmem S128 .i32).view.junk (tile_body.sl.Hs_8 d L fi fs)) y
      = newIdx L (tile_body.sl.dma0 d L fi) y := by
    intro y
    rw [← hf0]
    refine View.read_writes_apply_of_pieces _ _ (newIdx L ((sI : Memref sig .scVector .vmem S128 .i32).view.read (Elt F) (View.write (Elt F) (sI : Memref sig .scVector .vmem S128 .i32).view fs (tile_body.sl.dma0 d L fi) Finset.univ))) _ ?_ y (View.cover_of_tiled (s := S128) (tile_body.sl.Hs_8 d L fi fs) (![16] : Fin 1 → Nat) rfl y)
    intro p hp x
    change p ∈ [_, _, _, _, _, _, _, _] at hp
    simp only [List.mem_cons, List.not_mem_nil, _root_.or_false] at hp
    rcases hp with rfl | rfl | rfl | rfl | rfl | rfl | rfl | rfl
    · exact piece_eq L 7 (by omega) _ ((sI : Memref sig .scVector .vmem S128 .i32).view.read (Elt F) (View.write (Elt F) (sI : Memref sig .scVector .vmem S128 .i32).view fs (tile_body.sl.dma0 d L fi) Finset.univ)) x _ _
    · exact piece_eq L 6 (by omega) _ ((sI : Memref sig .scVector .vmem S128 .i32).view.read (Elt F) (View.write (Elt F) (sI : Memref sig .scVector .vmem S128 .i32).view fs (tile_body.sl.dma0 d L fi) Finset.univ)) x _ _
    · exact piece_eq L 5 (by omega) _ ((sI : Memref sig .scVector .vmem S128 .i32).view.read (Elt F) (View.write (Elt F) (sI : Memref sig .scVector .vmem S128 .i32).view fs (tile_body.sl.dma0 d L fi) Finset.univ)) x _ _
    · exact piece_eq L 4 (by omega) _ ((sI : Memref sig .scVector .vmem S128 .i32).view.read (Elt F) (View.write (Elt F) (sI : Memref sig .scVector .vmem S128 .i32).view fs (tile_body.sl.dma0 d L fi) Finset.univ)) x _ _
    · exact piece_eq L 3 (by omega) _ ((sI : Memref sig .scVector .vmem S128 .i32).view.read (Elt F) (View.write (Elt F) (sI : Memref sig .scVector .vmem S128 .i32).view fs (tile_body.sl.dma0 d L fi) Finset.univ)) x _ _
    · exact piece_eq L 2 (by omega) _ ((sI : Memref sig .scVector .vmem S128 .i32).view.read (Elt F) (View.write (Elt F) (sI : Memref sig .scVector .vmem S128 .i32).view fs (tile_body.sl.dma0 d L fi) Finset.univ)) x _ _
    · exact piece_eq L 1 (by omega) _ ((sI : Memref sig .scVector .vmem S128 .i32).view.read (Elt F) (View.write (Elt F) (sI : Memref sig .scVector .vmem S128 .i32).view fs (tile_body.sl.dma0 d L fi) Finset.univ)) x _ _
    · exact piece_eq L 0 (by omega) _ ((sI : Memref sig .scVector .vmem S128 .i32).view.read (Elt F) (View.write (Elt F) (sI : Memref sig .scVector .vmem S128 .i32).view fs (tile_body.sl.dma0 d L fi) Finset.univ)) x _ _
  have hsrc : ∀ y, (tile_body.sl.dma0 d L fi y).toNat ≤ 199 := fun y => hpos _
  have hin : ∀ x, ((sI : Memref sig .scVector .vmem S128 .i32).view.read (Elt F) ((sI : Memref sig .scVector .vmem S128 .i32).view.writes (Elt F) (sI : Memref sig .scVector .vmem S128 .i32).view.junk (tile_body.sl.Hs_8 d L fi fs)) x).toNat
      < S819200x128.size gathers_S819200x128_S128x128.axis := by
    intro x; rw [hG x]; exact newIdx_lt L _ x (hsrc x)
  sl_exec
  sl_step
  -- what was copied out, on the tile's rows of the result
  have hval : ∀ i ∈ (oSl L).view.set, (oSl L).view.writes (Elt F) fo [⟨Rect.whole S128x128, tile_body.sl.dma0_1 d L ft fi fs fr hin⟩] i
      = (Cert.Spec.pickedRows ft fi : Buf (Elt F) (oLoc d)) i := by
    intro i hi
    obtain ⟨y, -, rfl⟩ := Finset.mem_map.mp hi
    have h1 := View.read_writes_cons_emb (oSl L).view fo (Rect.whole S128x128) (tile_body.sl.dma0_1 d L ft fi fs fr hin) [] y
    rw [Rect.emb_whole_apply] at h1
    refine (show _ = (oSl L).view.read (Elt F) _ y from rfl).trans (h1.trans ?_)
    have h2 : tile_body.sl.dma0_1 d L ft fi fs fr hin y = tile_body.sl.gather0 d L ft fi fs hin y := by
      have h := View.read_writes_cons_emb (sR : Memref sig .scVector .vmem S128x128 .f32).view fr (Rect.whole S128x128) (tile_body.sl.gather0 d L ft fi fs hin) [] y
      rw [Rect.emb_whole_apply] at h
      exact h
    rw [h2]
    exact gathered_eq d L ft fi hpos _ (tile_body.sl.dma0 d L fi) hG (fun _ => rfl) _ hin y
  ihave Ho := (Entails.of_eq (pointsTo_congr hval)) $$ Ho
  ihave Ho := (Entails.of_eq (pts_oSl (F := F) d L _)) $$ Ho
  ihave Hi := (Entails.of_eq (pts_iSl (F := F) d L fi)) $$ Hi
  ihave Ht := (Entails.of_eq (pts_tab (F := F) d L q ft)) $$ Ht
  ihave Hs := (Entails.of_eq (pts_sI (F := F) d L _)) $$ Hs
  ihave Hr := (Entails.of_eq (pts_sR (F := F) d L _)) $$ Hr
  isplitl [Ht Hi Ho]
  · isplitl [Ht]; · iexact Ht
    isplitl [Hi]; · iexact Hi
    iexact Ho
  isplitl [Hs Hr Hbufs]
  · isplitl [Hs Hr]
    · isplitl [Hs]
      · iexists _; iexact Hs
      · iexists _; iexact Hr
    · iexact Hbufs
  isplitl [Hs2 Hs0 Hs1 Hsems]
  · isplitl [Hs2 Hs0 Hs1]
    · isplitl [Hs2]; · iexact Hs2
      isplitl [Hs0]; · iexact Hs0
      iexact Hs1
    · iexact Hsems
  iexists (insert (SemLoc.dma cc0_scoped1.sem, none) (insert (SemLoc.dma cc0_scratch2.sem, none) (insert (SemLoc.dma cc0_scoped0.sem, none) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Cert.Proof.KernelFrame

end
-- ==== Proof.KLaunch.lean ====
/-
  The launch: from one tile's task to the run of the whole device.

  @main on the TensorCore re-lays the input array as the table of 819200 rows, starts both SparseCores on the one
  kernel call and waits for them. The call hands SparseCore c a read token of the table and the sixteen parts of the
  index list and of the result that belong to its tiles (part 2 i + c to tile i); each SparseCore hands tile i a
  token of its token and that tile's two parts. The parts are pairwise disjoint and cover their arrays, so the
  arrays split into them and, coming back with every tile's rows of the result at the one whole-array function, join
  into the result at that function with the index list and the input array untouched.
-/
import proofs.«207438_g72335839200081_cont_9to1_m_70_8_alg».proof.Proof.KBody

noncomputable section

namespace Cert.Proof.KernelFrame

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Transfers (tileNo tileNo_val tileNo_inj pointsTo_tiles tileParts_disjoint tileParts_cover shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## The table, the result, what is asked of the index list -/

/-- The table: the input array re-laid as 819200 rows of 128 numbers. -/
def tabOf (d : Dev nD) : Buf (Elt F) (tLoc d) :=
  shapeCast S819200x128 (m (sLoc d)) shapeCasts_S4096x200x128_S819200x128
/-- The result: row b is the table's row 200 b + pos b. -/
def outOf (d : Dev nD) : Buf (Elt F) (oLoc d) := Cert.Spec.pickedRows (tabOf m d) (m (iLoc d))

/-- What the proof asks of the launch memory: every word of the index list is at most 199. -/
def PosOK : Prop := ∀ (d : Dev nD) (b : S4096.Idx), (m (iLoc d) b).toNat ≤ 199

/-! ## What the handshakes carry -/

abbrev c2 (c : Fin ((K (F := F)).nCore 0)) : Fin 2 := Fin.cast nCore_zero c
abbrev i16 (i : Fin ((K (F := F)).nSub 0)) : Fin 16 := Fin.cast nSub_zero i

/-- SparseCore c's read token of the table, and tile i's token of it. -/
abbrev tokC (c : Fin 2) : PosShare TreeShare := shareTok fullShare 2 c
abbrev tokT (c : Fin 2) (i : Fin 16) : PosShare TreeShare := shareTok (tokC c) 16 i

abbrev iPts (d : Dev nD) (t : Fin 32) : sProp 𝕄 := iLoc d ↦[iSet t]{fullShare} m (iLoc d)
abbrev oPts (d : Dev nD) (t : Fin 32) (f : Buf (Elt F) (oLoc d)) : sProp 𝕄 := oLoc d ↦[oSet t]{fullShare} f

/-- A tile's operands: its token of the table, its part of the index list, its part of the result at `f`. -/
abbrev tileRes (d : Dev nD) (c : Fin 2) (i : Fin 16) (f : Buf (Elt F) (oLoc d)) : sProp 𝕄 :=
  iprop((tLoc d ↦{tokT c i} tabOf m d) ∗ iPts m d (tileNo c i) ∗ oPts d (tileNo c i) f)
/-- A SparseCore's operands: its token of the table, its tiles' parts. -/
abbrev coreRes (d : Dev nD) (c : Fin 2) (f : Buf (Elt F) (oLoc d)) : sProp 𝕄 :=
  iprop((tLoc d ↦{tokC c} tabOf m d) ∗ (bigSep Finset.univ fun i : Fin 16 => iPts m d (tileNo c i))
    ∗ bigSep Finset.univ fun i : Fin 16 => oPts d (tileNo c i) f)

/-- The one call: each SparseCore its operands with the result at the launch contents, back with the result at
    `outOf`; each tile likewise. -/
def P : (K (F := F)).Pay (nD := nD) (Val := Elt F) (Name := ℕ) (U := UU) where
  st := fun q d c => match q with | 0 => coreRes m d (c2 c) (m (oLoc d))
  dn := fun q d c => match q with | 0 => coreRes m d (c2 c) (outOf m d)
  go := fun q d c i => match q with | 0 => tileRes m d (c2 c) (i16 i) (m (oLoc d))
  td := fun q d c i => match q with | 0 => tileRes m d (c2 c) (i16 i) (outOf m d)
  x := fun _ _ => iprop(emp)

instance P_storable : (P (F := F) m).IsStorable where
  st q d c := match q with
    | 0 => (inferInstance : BI.Storable (upEmb : UEmb _ 𝕄) (coreRes m d (c2 c) (m (oLoc d))))
  dn q d c := match q with
    | 0 => (inferInstance : BI.Storable (upEmb : UEmb _ 𝕄) (coreRes m d (c2 c) (outOf m d)))
  go q d c i := match q with
    | 0 => (inferInstance : BI.Storable (upEmb : UEmb _ 𝕄) (tileRes m d (c2 c) (i16 i) (m (oLoc d))))
  td q d c i := match q with
    | 0 => (inferInstance : BI.Storable (upEmb : UEmb _ 𝕄) (tileRes m d (c2 c) (i16 i) (outOf m d)))

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_rows (coordsV c s)
          tabV (Memref.isWhole_whole _) idxV (Memref.isWhole_whole _) outV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpos : PosOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO (tokT (c2 c) (i16 i)) (tabOf m d) (m (iLoc d)) (m (oLoc d)) (hpos d)).trans
    (wp_mono frame _ _ fun _ => obl_post)

/-! ## A SparseCore's operands split among its tiles -/

omit [FloatOps F] in
theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

theorem vecSplit : (K (F := F)).VecSplit' (P m) 0 := by
  intro d c
  show coreRes m d (c2 c) (m (oLoc d)) ⊢ |={Set.univ}=> iprop(
      (bigSep Finset.univ fun i : Fin ((K (F := F)).nSub 0) => tileRes m d (c2 c) (i16 i) (m (oLoc d)))
      ∗ ((bigSep Finset.univ fun i : Fin ((K (F := F)).nSub 0) => tileRes m d (c2 c) (i16 i) (outOf m d))
          -∗ coreRes m d (c2 c) (outOf m d)))
  rw [bigSep_tasks (F := F) (fun i => tileRes m d (c2 c) i (m (oLoc d))), bigSep_tasks (F := F) (fun i => tileRes m d (c2 c) i (outOf m d)),
    bigSep_sep', bigSep_sep', bigSep_sep', bigSep_sep']
  iintro ⟨Ht, Hi, Ho⟩
  ihave Ht' := (Transfers.pointsTo_toks_split (tokC (c2 c)) 16) $$ Ht
  icases Ht' with ⟨Hd, Htoks⟩
  imodintro
  isplitl [Htoks Hi Ho]
  · isplitl [Htoks]; · iexact Htoks
    isplitl [Hi]; · iexact Hi
    iexact Ho
  iintro ⟨Htoks, Hi, Ho⟩
  isplitl [Hd Htoks]
  · iapply (Transfers.pointsTo_toks_join (tokC (c2 c)) 16)
    isplitl [Hd]; · iexact Hd
    iexact Htoks
  isplitl [Hi]; · iexact Hi
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays dealt to the two SparseCores -/

omit [FloatOps F] in
theorem iSet_eq (t : Fin 32) : iSet t = (iPart t).set := by
  show ((View.whole (main_arg1_scv : Ref sig .scVector)).slice (iPart t)).set = _
  rw [View.set_slice]; exact Finset.map_refl
omit [FloatOps F] in
theorem oSet_eq (t : Fin 32) : oSet t = (oPart t).set := by
  show ((View.whole (main_v1_scv : Ref sig .scVector)).slice (oPart t)).set = _
  rw [View.set_slice]; exact Finset.map_refl

omit [FloatOps F] in
theorem iSets_disjoint : ∀ (c : Fin 2) (i : Fin 16) (c' : Fin 2) (i' : Fin 16), (c, i) ≠ (c', i') → Disjoint (iSet (tileNo c i)) (iSet (tileNo c' i')) :=
  fun c i c' i' h => by rw [iSet_eq, iSet_eq]; exact tileParts_disjoint hdivI c i c' i' h
omit [FloatOps F] in
theorem oSets_disjoint : ∀ (c : Fin 2) (i : Fin 16) (c' : Fin 2) (i' : Fin 16), (c, i) ≠ (c', i') → Disjoint (oSet (tileNo c i)) (oSet (tileNo c' i')) :=
  fun c i c' i' h => by rw [oSet_eq, oSet_eq]; exact tileParts_disjoint hdivO c i c' i' h
omit [FloatOps F] in
theorem iSets_cover (x : S4096.Idx) : ∃ (c : Fin 2) (i : Fin 16), x ∈ iSet (tileNo c i) := by
  obtain ⟨c, i, h⟩ := tileParts_cover hdivI x
  exact ⟨c, i, by rw [iSet_eq]; exact h⟩
omit [FloatOps F] in
theorem oSets_cover (x : S4096x128.Idx) : ∃ (c : Fin 2) (i : Fin 16), x ∈ oSet (tileNo c i) := by
  obtain ⟨c, i, h⟩ := tileParts_cover hdivO x
  exact ⟨c, i, by rw [oSet_eq]; exact h⟩

/-- The table, the index list and the result (at `f`) held whole are the share of the table the dealer keeps and
    the two SparseCores' operands. -/
theorem deal (d : Dev nD) (f : Buf (Elt F) (oLoc d)) :
    (iprop((tLoc d ↦{fullShare} tabOf m d) ∗ (iLoc d ↦{fullShare} m (iLoc d)) ∗ (oLoc d ↦{fullShare} f)) : sProp 𝕄)
      ⊣⊢ iprop((tLoc d ↦{shareDrop fullShare 2} tabOf m d) ∗ bigSep Finset.univ fun c : Fin 2 => coreRes m d c f) := by
  rw [pointsTo_tiles (ℓ := iLoc d) (q := fullShare) (fun c i => iSet (tileNo c i)) iSets_disjoint iSets_cover (m (iLoc d)),
    pointsTo_tiles (ℓ := oLoc d) (q := fullShare) (fun c i => oSet (tileNo c i)) oSets_disjoint oSets_cover f,
    bigSep_sep', bigSep_sep']
  constructor
  · iintro ⟨Ht, Hi, Ho⟩
    ihave Ht' := (Transfers.pointsTo_toks_split fullShare 2) $$ Ht
    icases Ht' with ⟨Hd, Htoks⟩
    isplitl [Hd]; · iexact Hd
    isplitl [Htoks]; · iexact Htoks
    isplitl [Hi]; · iexact Hi
    iexact Ho
  · iintro ⟨Hd, Htoks, Hi, Ho⟩
    isplitl [Hd Htoks]
    · iapply (Transfers.pointsTo_toks_join fullShare 2)
      isplitl [Hd]; · iexact Hd
      iexact Htoks
    isplitl [Hi]; · iexact Hi
    iexact Ho

omit [FloatOps F] in
theorem bigSep_cores (Φ : Fin 2 → sProp 𝕄) :
    (bigSep Finset.univ fun c : Fin ((K (F := F)).nCore 0) => Φ (c2 c)) = bigSep Finset.univ Φ :=
  bigSep_congr fun _ _ => congrArg Φ (Fin.ext rfl)

theorem st0_eq (d : Dev nD) :
    (bigSep Finset.univ fun c : Fin ((K (F := F)).nCore 0) => (P m).st 0 d c) = bigSep Finset.univ fun c : Fin 2 => coreRes m d c (m (oLoc d)) :=
  bigSep_cores (F := F) (fun c => coreRes m d c (m (oLoc d)))
theorem dn0_eq (d : Dev nD) :
    (bigSep Finset.univ fun c : Fin ((K (F := F)).nCore 0) => (P m).dn 0 d c) = bigSep Finset.univ fun c : Fin 2 => coreRes m d c (outOf m d) :=
  bigSep_cores (F := F) (fun c => coreRes m d c (outOf m d))

/-! ## @main on the TensorCore -/

abbrev s' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The re-laying of the input array as the table. -/
abbrev opRe : HloOp τ sig (Elt F) := StableHlo.reshape main_arg0 main_v0 rfl shapeCasts_S4096x200x128_S819200x128

/-- The TensorCore's arrays, all unscoped. -/
abbrev S4 : Finset (DevRef τ sig) := {s', i', t', o'}

omit [FloatOps F] in
theorem held_S4 (d : Dev nD) (W : Valuation τ sig (Elt F)) :
    (held (T d) S4 W : sProp 𝕄) = iprop((sLoc d ↦{fullShare} W s') ∗ (iLoc d ↦{fullShare} W i') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((sLoc d ↦{fullShare} W main_arg0) ∗ (iLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hRe : (opRe (F := F)).bufs ⊆ S4 := show ({s', t'} : Finset (DevRef τ sig)) ⊆ S4 by decide

theorem res_s (d : Dev nD) : (opRe (F := F)).result (V0 m d) s' = m (sLoc d) :=
  (opRe (F := F)).result_of_not_mem (V0 m d) (b := s') (show s' ∉ ({t'} : Finset (DevRef τ sig)) by decide)
theorem res_i (d : Dev nD) : (opRe (F := F)).result (V0 m d) i' = m (iLoc d) :=
  (opRe (F := F)).result_of_not_mem (V0 m d) (b := i') (show i' ∉ ({t'} : Finset (DevRef τ sig)) by decide)
theorem res_o (d : Dev nD) : (opRe (F := F)).result (V0 m d) o' = m (oLoc d) :=
  (opRe (F := F)).result_of_not_mem (V0 m d) (b := o') (show o' ∉ ({t'} : Finset (DevRef τ sig)) by decide)
theorem res_t (d : Dev nD) : (opRe (F := F)).result (V0 m d) t' = tabOf m d :=
  (StableHlo.reshape_result _ _ _ _ _ _ _).trans rfl

/-- What @main leaves the claim: the input array and the index list at their launch contents, the result at `outOf`. -/
abbrev FIN (d : Dev nD) : sProp 𝕄 :=
  iprop((sLoc d ↦{fullShare} m (sLoc d)) ∗ (iLoc d ↦{fullShare} m (iLoc d)) ∗ (oLoc d ↦{fullShare} outOf m d))

/-- @main on device `d`'s TensorCore: the re-laying, then the one call from the table, the index list and the result
    dealt to the two SparseCores, joined again at its return. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRe) (S := S4) hRe (V := V0 m d)) $$ [Hb Hheld]
  · isplitl [Hb]; · iexact Hb
    iexact Hheld
  iintro ⟨Hb, Hheld⟩
  ihave Hh := (Entails.of_eq (held_S4 (F := F) d _)) $$ Hheld
  rw [res_s, res_i, res_t, res_o]
  icases Hh with ⟨Hs, Hi, Ht, Ho⟩
  rw [wp_ret]; imodintro
  -- the table, the index list and the result dealt to the two SparseCores; the dealer keeps a share of the table
  ihave Hall := (deal m d (m (oLoc d))).1 $$ [Ht Hi Ho]
  · isplitl [Ht]; · iexact Ht
    isplitl [Hi]; · iexact Hi
    iexact Ho
  icases Hall with ⟨Hd, Hcores⟩
  iapply ((K (F := F)).wp_run (D (F := F)) 𝒱 (EH := EH) (P := P m) κ d 0) $$ [Hst Hcores Hd Hs]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hall := (deal m d (outOf m d)).2 $$ [Hd Hdn']
  · isplitl [Hd]; · iexact Hd
    iexact Hdn'
  icases Hall with ⟨-, Hi, Ho⟩
  imodintro
  isplitl [Hst]; · iexact Hst
  isplitl [Hs]; · iexact Hs
  isplitl [Hi]; · iexact Hi
  iexact Ho

/-! ## Reading the claim off the final memory -/

def fq (d : Dev nD) (s' : Phys nD τ sig (Elt F)) : Prop :=
  s'.mem.mem (sLoc d) = m (sLoc d) ∧ s'.mem.mem (iLoc d) = m (iLoc d) ∧ s'.mem.mem (oLoc d) = outOf m d

theorem hfin (d : Dev nD) (s' : Phys nD τ sig (Elt F)) : iprop(FIN m d ∗ SI s') ⊢ (⌜fq m d s'⌝ : sProp 𝕄) := by
  iintro ⟨⟨Hs, Hi, Ho⟩, HSI⟩
  ihave H := (persistent_entails_right (SI_pointsTo_agree (st := s') (ℓ := sLoc d) (I := Finset.univ) (q := fullShare) (f := m (sLoc d)))) $$ [HSI Hs]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := outOf m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The result at `outOf`; the input array and the index list unchanged. -/
def QC : PUnit × MemSt nD τ sig (Elt F) → Prop := fun r =>
  ∀ c : Dev nD, r.2.mem (oLoc c) = outOf m c ∧ r.2.mem (sLoc c) = m (sLoc c) ∧ r.2.mem (iLoc c) = m (iLoc c)

/-- Every weakly fair execution of the device's thirty-five threads from `m` terminates, nothing faulting, with the
    result at `outOf` and the arguments unchanged — when every word of the index list is at most 199. -/
theorem run_main [∀ e, Nonempty (Elt F e)] (hpos : PosOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpos)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.KernelFrame

end
-- ==== Proof.KISetup.lean ====
/-
  The gather kernel as the SparseCore launch theorem sees it: the program's configuration, the ghost state (the
  handshakes' rounds beside the local transfers' counters), the three arrays in HBM and each tile's two scratch
  buffers as the kernel's body names them, and the numbering of the thirty-two tiles.

  Tile s of SparseCore c is worker number w = 2 s + c. It owns entries [128 w, 128 w + 128) of the index list and
  rows [128 w, 128 w + 128) of the result; every tile reads the whole table (the input array seen as 819200 rows
  of 128 numbers).
-/
import proofs.«207438_g72335839200081_cont_9to1_m_70_8_alg».proof.KernelIdeal
import proofs.«207438_g72335839200081_cont_9to1_m_70_8_alg».proof.Proof.Gen.KernelIdeal
import proofs.«207438_g72335839200081_cont_9to1_m_70_8_alg».proof.Proof.Gen.KernelIdeal.Skeleton
import proofs.«207438_g72335839200081_cont_9to1_m_70_8_alg».proof.Proof.LibOwnSplit
import proofs.«207438_g72335839200081_cont_9to1_m_70_8_alg».proof.Proof.LibTileDeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the local transfers' counters -/

abbrev UH : Type := URounds (GSem nD τ sig) ℕ
abbrev UU : Type := UH × Counters

/-- The handshakes' rounds, the left factor; the transfers' counters are found by instance in the right. -/
abbrev EH : Emb UH (MT nD τ sig (HIx 1) (Elt F) ℕ UU ℕ) := embL

/-! ## The arrays and the scratch buffers -/

/-- The input array, the index list, the table (the input array re-laid as rows) and the result, on device d. -/
abbrev sLoc (d : Dev nD) : Loc nD τ sig := (SparseCore.T d).loc main_arg0
abbrev iLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-- The same arrays as a tile's body names them. -/
abbrev tabV : Memref sig .scVector .hbm S819200x128 .f32 := Memref.whole main_v0_scv
abbrev idxV : Memref sig .scVector .hbm S4096 .i32 := Memref.whole main_arg1_scv
abbrev outV : Memref sig .scVector .hbm S4096x128 .f32 := Memref.whole main_v1_scv
/-- A tile's scratch: its 128 index words, its 128 gathered rows. -/
abbrev sI : Memref sig .scVector .vmem S128 .i32 := Memref.whole cc0_scratch0
abbrev sR : Memref sig .scVector .vmem S128x128 .f32 := Memref.whole cc0_scratch1

/-- The tile a grid point names. -/
abbrev cV (L : grid0.Coords) : Fin τ.nSC := (L 0).castLE hcore0
abbrev jV (L : grid0.Coords) : Fin τ.nSub := (L 1).castLE hsub0

/-- The tile's part of the index list and of the result, as its body slices them. -/
abbrev iSl (L : grid0.Coords) : Memref sig .scVector .hbm S128 .i32 :=
  (idxV : Memref sig .scVector .hbm S4096 .i32).slice (Rect.unit (s := S4096) (k0_off1 L) S128.size (k0_off1_inb L)) (fun _ => rfl)
abbrev oSl (L : grid0.Coords) : Memref sig .scVector .hbm S128x128 .f32 :=
  (outV : Memref sig .scVector .hbm S4096x128 .f32).slice (Rect.unit (s := S4096x128) (k0_off2 L) S128x128.size (k0_off2_inb L)) (fun _ => rfl)

end Cert.Proof.KernelIdealFrame

end
-- ==== Proof.KIIdx.lean ====
/-
  The index list a tile builds, entry by entry.

  Worker w (tile s of SparseCore c, w = 2 s + c) copies entries [128 w, 128 w + 128) of the index list into its
  scratch and adds to entry j (j = 16 k + l, chunk k, lane l) the word (128 w + 16 k) · 200 + l · 200, all in 32-bit
  arithmetic. Where the copied word p is at most 199 nothing wraps and the entry's value is
      (128 w + j) · 200 + p  <  819200,
  the number of row p of batch 128 w + j in the table of 4096 · 200 rows.
-/
import proofs.«207438_g72335839200081_cont_9to1_m_70_8_alg».proof.Proof.KISetup
import Idealize.ShloMosaic.Lib.Pipeline.Value

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The worker's number and its base word -/

/-- Worker number of a grid point: tile (L 1) of SparseCore (L 0). -/
def wNo (L : grid0.Coords) : Nat := 2 * (L 1).val + (L 0).val

theorem L0_lt (L : grid0.Coords) : (L 0).val < 2 := (L 0).isLt
theorem L1_lt (L : grid0.Coords) : (L 1).val < 16 := (L 1).isLt
theorem wNo_lt (L : grid0.Coords) : wNo L < 32 := by have := L0_lt L; have := L1_lt L; unfold wNo; omega

/-- The word 128 w as the body computes it. -/
def baseWord (L : grid0.Coords) : BitVec 32 :=
  Scalar.muli (Scalar.addi (Scalar.muli (BitVec.ofNat 32 (L 1).val) 2#32) (BitVec.ofNat 32 (L 0).val)) 128#32

theorem baseWord_toNat (L : grid0.Coords) : (baseWord L).toNat = 128 * wNo L := by
  have := L0_lt L; have := L1_lt L
  unfold baseWord wNo Scalar.muli Scalar.addi IntOp.muli IntOp.addi
  simp only [BitVec.toNat_mul, BitVec.toNat_add, BitVec.toNat_ofNat]
  omega

/-! ## The list after the additions -/

/-- Entry y of the list after the eight additions, from the copied words. -/
def newIdx (L : grid0.Coords) (src : S128.Idx → BitVec 32) : S128.Idx → BitVec 32 := fun y =>
  src y + ((baseWord L + BitVec.ofNat 32 (16 * ((y 0).val / 16))) * 200#32 + BitVec.ofNat 32 ((y 0).val % 16) * 200#32)

theorem newIdx_toNat (L : grid0.Coords) (src : S128.Idx → BitVec 32) (y : S128.Idx) (h : (src y).toNat ≤ 199) :
    (newIdx L src y).toNat = (128 * wNo L + (y 0).val) * 200 + (src y).toNat := by
  have hw := wNo_lt L
  have hy : (y 0).val < 128 := (y 0).isLt
  have hb := baseWord_toNat L
  unfold newIdx
  simp only [BitVec.toNat_mul, BitVec.toNat_add, BitVec.toNat_ofNat, hb]
  omega

theorem newIdx_lt (L : grid0.Coords) (src : S128.Idx → BitVec 32) (y : S128.Idx) (h : (src y).toNat ≤ 199) :
    (newIdx L src y).toNat < 819200 := by
  have hw := wNo_lt L
  have hy : (y 0).val < 128 := (y 0).isLt
  rw [newIdx_toNat L src y h]; omega

/-- Chunk k of the list as the body stores it — the sixteen loaded words plus the chunk's base word times 200 plus the
    lane numbers times 200 — is the list's entries under the chunk's rectangle. -/
theorem chunk_eq (L : grid0.Coords) (k : Nat) (hk : k < 8)
    (hin : ∀ a, (![16 * k] : Fin 1 → Nat) a + S16.size a ≤ S128.size a)
    (f : S128.Idx → BitVec 32) (x : S16.Idx) :
    (addi (fun j => f ((Rect.unit (s := S128) ![16 * k] S16.size hin).emb j))
        (addi (broadcast S16 (Scalar.muli (Scalar.addi (baseWord L) (BitVec.ofNat 32 (16 * k))) 200#32))
          (muli (iota .scVector S16 32 [0] iota_S16_d0_w32_scVector) (broadcast S16 200#32)))) x
      = newIdx L f ((Rect.unit (s := S128) ![16 * k] S16.size hin).emb x) := by
  have hx : (x 0).val < 16 := (x 0).isLt
  have he : ((Rect.unit (s := S128) ![16 * k] S16.size hin).emb x 0).val = 16 * k + (x 0).val := by
    rw [Rect.emb_apply]; simp [Rect.unit]
  unfold newIdx addi muli broadcast iota IntOp.addi IntOp.muli Scalar.muli Scalar.addi IntOp.muli IntOp.addi
  rw [he]
  have h1 : (16 * k + (x 0).val) / 16 = k := by omega
  have h2 : (16 * k + (x 0).val) % 16 = (x 0).val := by omega
  rw [h1, h2]
  simp

/-- The same with the two shape casts of a 16-vector to itself that the body prints around the sum. -/
theorem piece_eq (L : grid0.Coords) (k : Nat) (hk : k < 8)
    (hin : ∀ a, (![16 * k] : Fin 1 → Nat) a + S16.size a ≤ S128.size a)
    (f : S128.Idx → BitVec 32) (x : S16.Idx) (h1 h2 : S16.ShapeCasts S16) :
    shapeCast S16 (addi (shapeCast S16 (fun j => f ((Rect.unit (s := S128) ![16 * k] S16.size hin).emb j)) h1)
        (addi (broadcast S16 (Scalar.muli (Scalar.addi (baseWord L) (BitVec.ofNat 32 (16 * k))) 200#32))
          (muli (iota .scVector S16 32 [0] iota_S16_d0_w32_scVector) (broadcast S16 200#32)))) h2 x
      = newIdx L f ((Rect.unit (s := S128) ![16 * k] S16.size hin).emb x) := by
  rw [shapeCast_self]
  have e : shapeCast S16 (fun j => f ((Rect.unit (s := S128) ![16 * k] S16.size hin).emb j)) h1
      = fun j => f ((Rect.unit (s := S128) ![16 * k] S16.size hin).emb j) := shapeCast_self (s := S16) _ h1
  rw [e]
  exact chunk_eq L k hk hin f x

end Cert.Proof.KernelIdealFrame

end
-- ==== Proof.KIBody.lean ====
/-
  One tile's task, at a symbolic grid point.

  Worker w holds, for the duration of its task, a read share of the table, entries [128 w, 128 w + 128) of the index
  list and rows [128 w, 128 w + 128) of the result, with its two scratch buffers and its three DMA semaphores at zero.
  It copies its entries into the index scratch, adds to entry j the word (128 w + j) · 200 (so that the entry names
  row pos(128 w + j) of batch 128 w + j in the table), gathers the 128 named table rows into the row scratch, and copies
  them out to its rows of the result. Every entry is below 819200 because every word of the list is at most 199, so
  the gather is served in full; and row j of what is copied out is table row (128 w + j) · 200 + pos(128 w + j):
  the tile's rows of the result end at the one whole-array function `Cert.Spec.pickedRows`.
-/
import proofs.«207438_g72335839200081_cont_9to1_m_70_8_alg».proof.Proof.KIIdx
import proofs.«207438_g72335839200081_cont_9to1_m_70_8_alg».proof.Proof.Spec

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]
variable (d : Dev nD) (L : grid0.Coords)

/-- The tile's thread. -/
abbrev thr : Thread nD τ := V d (cV L) (jV L)

/-! ## The thirty-two parts of the index list and of the result -/

theorem hdivI : 32 ∣ S4096.size 0 := ⟨128, rfl⟩
theorem hdivO : 32 ∣ S4096x128.size 0 := ⟨128, rfl⟩
abbrev iPart (t : Fin 32) : Rect S4096 := Rect.part (s := S4096) (a₀ := 0) hdivI t
abbrev oPart (t : Fin 32) : Rect S4096x128 := Rect.part (s := S4096x128) (a₀ := 0) hdivO t
abbrev iSet (t : Fin 32) : Finset S4096.Idx := ((idxV : Memref sig .scVector .hbm S4096 .i32).view.slice (iPart t)).set
abbrev oSet (t : Fin 32) : Finset S4096x128.Idx := ((outV : Memref sig .scVector .hbm S4096x128 .f32).view.slice (oPart t)).set

/-- The worker's number as one of the thirty-two. -/
def tn (L : grid0.Coords) : Fin 32 := ⟨wNo L, wNo_lt L⟩

omit [FloatOps F] in
theorem iRect_eq : Rect.unit (s := S4096) (k0_off1 L) S128.size (k0_off1_inb L) = iPart (tn L) := by
  unfold iPart Rect.part Rect.block
  congr 1 <;> funext a
  · rw [k0_off1_eq]
    match a with
    | 0 => simp [Shape.partIx, Shape.partSize, tn, wNo]; omega
  · match a with
    | 0 => simp [Shape.partSize]
omit [FloatOps F] in
theorem oRect_eq : Rect.unit (s := S4096x128) (k0_off2 L) S128x128.size (k0_off2_inb L) = oPart (tn L) := by
  unfold oPart Rect.part Rect.block
  congr 1 <;> funext a
  · rw [k0_off2_eq]
    match a with
    | 0 => simp [Shape.partIx, Shape.partSize, tn, wNo]; omega
    | 1 => simp [Shape.partIx, Shape.partSize]
  · match a with
    | 0 => simp [Shape.partSize]
    | 1 => simp [Shape.partSize]

omit [FloatOps F] in
theorem set_iSl : (iSl L).view.set = iSet (tn L) := by
  show ((idxV : Memref sig .scVector .hbm S4096 .i32).view.slice (Rect.unit (s := S4096) (k0_off1 L) S128.size (k0_off1_inb L))).set = _
  rw [iRect_eq]
omit [FloatOps F] in
theorem set_oSl : (oSl L).view.set = oSet (tn L) := by
  show ((outV : Memref sig .scVector .hbm S4096x128 .f32).view.slice (Rect.unit (s := S4096x128) (k0_off2 L) S128x128.size (k0_off2_inb L))).set = _
  rw [oRect_eq]

/-! ## The buffers as the body addresses them -/

omit [FloatOps F] in
theorem pts_tab (q : PosShare TreeShare) (f : Buf (Elt F) (tLoc d)) :
    ((tabV : Memref sig .scVector .hbm S819200x128 .f32).view.loc (thr d L) ↦{q} f : sProp 𝕄) = tLoc d ↦{q} f := rfl
omit [FloatOps F] in
theorem pts_iSl (f : Buf (Elt F) (iLoc d)) :
    ((iSl L).view.loc (thr d L) ↦[(iSl L).view.set]{fullShare} f : sProp 𝕄) = iLoc d ↦[iSet (tn L)]{fullShare} f := by
  rw [set_iSl]
omit [FloatOps F] in
theorem pts_oSl (f : Buf (Elt F) (oLoc d)) :
    ((oSl L).view.loc (thr d L) ↦[(oSl L).view.set]{fullShare} f : sProp 𝕄) = oLoc d ↦[oSet (tn L)]{fullShare} f := by
  rw [set_oSl]
omit [FloatOps F] in
theorem pts_sI (f : Buf (Elt F) ((thr d L).loc cc0_scratch0)) :
    ((sI : Memref sig .scVector .vmem S128 .i32).view.loc (thr d L) ↦{fullShare} f : sProp 𝕄) = (thr d L).loc cc0_scratch0 ↦{fullShare} f := rfl
omit [FloatOps F] in
theorem pts_sR (f : Buf (Elt F) ((thr d L).loc cc0_scratch1)) :
    ((sR : Memref sig .scVector .vmem S128x128 .f32).view.loc (thr d L) ↦{fullShare} f : sProp 𝕄) = (thr d L).loc cc0_scratch1 ↦{fullShare} f := rfl

omit [FloatOps F] in
theorem bigSepL_two {I : Type} (Φ : I → sProp 𝕄) (a b : I) : bigSepL [a, b] Φ = iprop(Φ a ∗ Φ b) := rfl
omit [FloatOps F] in
theorem bigSepL_three {I : Type} (Φ : I → sProp 𝕄) (a b c : I) : bigSepL [a, b, c] Φ = iprop(Φ a ∗ Φ b ∗ Φ c) := rfl

/-! ## What the gather fetches

  Row y of the tile's row scratch is table row g(y), the list's entry for y; that entry is (128 w + y) · 200 plus the
  word copied for it, which is the index list's word for row 128 w + y of the result; so the row is table row
  200 b + pos b for b = 128 w + y, the result's row b. -/

/-- The gathered rows, read at a row y and column of the scratch, are `Cert.Spec.pickedRows` at the result's index that
    the tile's copy-out gives (y, column). -/
theorem gathered_eq (ft : Buf (Elt F) (tLoc d)) (fi : Buf (Elt F) (iLoc d)) (hpos : ∀ b, (fi b).toNat ≤ 199)
    (g src : S128.Idx → BitVec 32) (hg' : ∀ y', g y' = newIdx L src y')
    (hsrc : ∀ z, src z = fi ((iSl L).view.emb z))
    (hn : S128.numel = S128x128.size gathers_S819200x128_S128x128.axis')
    (hin : ∀ x, (g x).toNat < S819200x128.size gathers_S819200x128_S128x128.axis) (y : S128x128.Idx) :
    SparseCore.gatherPayload gathers_S819200x128_S128x128
      (View.read (Elt F) ((tabV : Memref sig .scVector .hbm S819200x128 .f32).slice
        (Rect.unit (s := S819200x128) ![0, 0] S819200x128.size inb_S819200x128_S819200x128_0_0) (fun _ => rfl)).view ft)
      (SparseCore.rows (F := F) g hn hin) y
    = (Cert.Spec.pickedRows ft fi : Buf (Elt F) (oLoc d)) ((oSl L).view.emb y) := by
  have hL0 := L0_lt L
  have hL1 := L1_lt L
  -- the index under the tile's row y of the result
  have hz0 : (((oSl L).view.emb y) 0).val = 128 * wNo L + (y 0).val := by
    show (k0_off2 L) 0 + 1 * (y 0).val = _
    rw [k0_off2_eq]; simp [wNo]; omega
  have hz1 : (((oSl L).view.emb y) 1).val = (y 1).val := by
    show (k0_off2 L) 1 + 1 * (y 1).val = _
    rw [k0_off2_eq]; simp
  generalize (oSl L).view.emb y = z at hz0 hz1 ⊢
  -- the list entry that names the row
  obtain ⟨y', hy'⟩ : ∃ y' : S128.Idx, y' = S128.rowMajor.symm ((y gathers_S819200x128_S128x128.axis').cast hn.symm) := ⟨_, rfl⟩
  have hy0 : (y' 0).val = (y 0).val := by
    rw [← Shape.rowMajor_val_one y', hy', Equiv.apply_symm_apply]; rfl
  have hidx0 : ((gathers_S819200x128_S128x128.idx (SparseCore.rows (F := F) g hn hin) y) ⟨0, by decide⟩).val = (g y').toNat := by
    rw [hy']; unfold Shape.Gathers.idx; rw [dif_pos rfl]; rfl
  have hidx1 : ((gathers_S819200x128_S128x128.idx (SparseCore.rows (F := F) g hn hin) y) ⟨1, by decide⟩).val = (y 1).val := by
    unfold Shape.Gathers.idx; rw [dif_neg (by decide)]; rfl
  -- the word copied for that entry is the index list's word for the result's row
  have hw : (iSl L).view.emb y' = ValueIdx.ix1 (z 0) := by
    funext a
    match a with
    | ⟨0, _⟩ =>
      apply Fin.ext
      show (k0_off1 L) 0 + 1 * (y' 0).val = (z 0).val
      rw [k0_off1_eq, hz0, hy0]; simp [wNo]; omega
  have hs : (src y').toNat ≤ 199 := by rw [hsrc]; exact hpos _
  have hgv : (g y').toNat = (128 * wNo L + (y' 0).val) * 200 + (src y').toNat := by
    rw [hg']; exact newIdx_toNat L src y' hs
  unfold SparseCore.gatherPayload Cert.Spec.pickedRows
  show ft _ = ft _
  congr 1
  funext a
  apply Fin.ext
  match a with
  | ⟨0, _⟩ =>
    show 0 + 1 * ((gathers_S819200x128_S128x128.idx (SparseCore.rows (F := F) g hn hin) y) ⟨0, by decide⟩).val
      = (z 0).val * 200 + (fi (ValueIdx.ix1 (z 0))).toNat % 200
    have hle : (fi (ValueIdx.ix1 (z 0))).toNat ≤ 199 := hpos _
    rw [hidx0, hgv, hy0, hsrc, hw, hz0, Nat.mod_eq_of_lt (Nat.lt_of_le_of_lt hle (by decide)), Nat.zero_add, Nat.one_mul]
    rfl
  | ⟨1, _⟩ =>
    show 0 + 1 * ((gathers_S819200x128_S128x128.idx (SparseCore.rows (F := F) g hn hin) y) ⟨1, by decide⟩).val = (z 1).val
    rw [hidx1, hz1]; omega

/-! ## The task -/

/-- Worker `tn L`'s task: from a share of the table, its entries of the index list (every word at most 199) and its
    rows of the result, to the same with its rows of the result at `Cert.Spec.pickedRows` of the table and the list. -/
theorem tile_body (hF : (K (F := F)).Facts) (O : CellTallies nD τ sig (HIx 1)) (W : Waits sig (HIx 1)) (hO : ∀ g, O g none = 0)
    (q : PosShare TreeShare) (ft : Buf (Elt F) (tLoc d)) (fi : Buf (Elt F) (iLoc d)) (fo : Buf (Elt F) (oLoc d))
    (hpos : ∀ b, (fi b).toNat ≤ 199) :
    iprop(levAts (K (F := F)).L (K (F := F)).lev ∗ emp
        ∗ ((tLoc d ↦{q} ft) ∗ (iLoc d ↦[iSet (tn L)]{fullShare} fi) ∗ (oLoc d ↦[oSet (tn L)]{fullShare} fo))
        ∗ scopedBufs (thr d L) ∗ scopedSems0 (thr d L) ∗ owes (thr d L) O W)
      ⊢ wp frame (wpE (defs₀ (F := F)) 𝒱₀ (thr d L) none) Set.univ
          (cc0__gather_rows L tabV (Memref.isWhole_whole _) idxV (Memref.isWhole_whole _) outV (Memref.isWhole_whole _)
            sI (Memref.isWhole_whole _) sR (Memref.isWhole_whole _) cc0_scratch2 cc0_scoped0 cc0_scoped1)
          fun _ => (iprop(((tLoc d ↦{q} ft) ∗ (iLoc d ↦[iSet (tn L)]{fullShare} fi)
              ∗ (oLoc d ↦[oSet (tn L)]{fullShare} (Cert.Spec.pickedRows ft fi : Buf (Elt F) (oLoc d))))
            ∗ scopedBufs (thr d L) ∗ scopedSems0 (thr d L)
            ∗ ∃ W', ⌜∀ p ∈ W', p ∈ W ∨ p.2 = none⌝ ∗ owes (thr d L) O W') : sProp 𝕄) := by
  rw [cc0__gather_rows_eq_skeleton]; unfold cc0__gather_rows_skel
  rw [(K (F := F)).scopedBufs_V hF d (cV L) (jV L), SparseCore.Cfg.scopedSems0_V (Val := Elt F) d (cV L) (jV L),
    Cert.Lib.OwnSplit.ownSems0_split (Val := Elt F) (Ix := HIx 1) (Name := ℕ) (U := UU) (Lvl := ℕ) (thr d L) [SemLoc.dma cc0_scratch2.sem, SemLoc.dma cc0_scoped0.sem, SemLoc.dma cc0_scoped1.sem]
      (by decide)
      (fun s hs => by
        simp only [List.mem_cons, List.mem_nil_iff, or_false] at hs
        rcases hs with rfl | rfl | rfl <;> (show SemLoc.isScoped Kind.scVector _ = true) <;> decide),
    Cert.Lib.OwnSplit.ownBufs_split (Val := Elt F) (Ix := HIx 1) (Name := ℕ) (U := UU) (Lvl := ℕ) (thr d L) [(Proc.scVector (cV L) (jV L)).devRef cc0_scratch0, (Proc.scVector (cV L) (jV L)).devRef cc0_scratch1]
      (by simp) (by intro b hb; simp at hb; rcases hb with rfl | rfl <;> rfl)]
  rw [bigSepL_two, bigSepL_three]
  iintro ⟨#Hlv, -, ⟨Ht, Hi, Ho⟩, ⟨⟨⟨%fs, Hs⟩, ⟨%fr, Hr⟩⟩, Hbufs⟩, ⟨⟨Hs2, Hs0, Hs1⟩, Hsems⟩, HO⟩
  ihave Hmw := ((K (F := F)).mayWaits_none (thr := thr d L) hO) $$ Hlv
  ihave Ht := (Entails.of_eq (pts_tab (F := F) d L q ft).symm) $$ Ht
  ihave Hi := (Entails.of_eq (pts_iSl (F := F) d L fi).symm) $$ Hi
  ihave Ho := (Entails.of_eq (pts_oSl (F := F) d L fo).symm) $$ Ho
  ihave Hs := (Entails.of_eq (pts_sI (F := F) d L fs).symm) $$ Hs
  ihave Hr := (Entails.of_eq (pts_sR (F := F) d L fr).symm) $$ Hr
  sl_exec
  -- the index scratch after the copy and the eight additions, entry by entry
  have hf0 : (sI : Memref sig .scVector .vmem S128 .i32).view.read (Elt F) (View.write (Elt F) (sI : Memref sig .scVector .vmem S128 .i32).view fs (tile_body.sl.dma0 d L fi) Finset.univ)
      = tile_body.sl.dma0 d L fi := View.read_write_univ _ _
  have hG : ∀ y, (sI : Memref sig .scVector .vmem S128 .i32).view.read (Elt F) ((sI : Memref sig .scVector .vmem S128 .i32).view.writes (Elt F) (sI : Memref sig .scVector .vmem S128 .i32).view.junk (tile_body.sl.Hs_8 d L fi fs)) y
      = newIdx L (tile_body.sl.dma0 d L fi) y := by
    intro y
    rw [← hf0]
    refine View.read_writes_apply_of_pieces _ _ (newIdx L ((sI : Memref sig .scVector .vmem S128 .i32).view.read (Elt F) (View.write (Elt F) (sI : Memref sig .scVector .vmem S128 .i32).view fs (tile_body.sl.dma0 d L fi) Finset.univ))) _ ?_ y (View.cover_of_tiled (s := S128) (tile_body.sl.Hs_8 d L fi fs) (![16] : Fin 1 → Nat) rfl y)
    intro p hp x
    change p ∈ [_, _, _, _, _, _, _, _] at hp
    simp only [List.mem_cons, List.not_mem_nil, _root_.or_false] at hp
    rcases hp with rfl | rfl | rfl | rfl | rfl | rfl | rfl | rfl
    · exact piece_eq L 7 (by omega) _ ((sI : Memref sig .scVector .vmem S128 .i32).view.read (Elt F) (View.write (Elt F) (sI : Memref sig .scVector .vmem S128 .i32).view fs (tile_body.sl.dma0 d L fi) Finset.univ)) x _ _
    · exact piece_eq L 6 (by omega) _ ((sI : Memref sig .scVector .vmem S128 .i32).view.read (Elt F) (View.write (Elt F) (sI : Memref sig .scVector .vmem S128 .i32).view fs (tile_body.sl.dma0 d L fi) Finset.univ)) x _ _
    · exact piece_eq L 5 (by omega) _ ((sI : Memref sig .scVector .vmem S128 .i32).view.read (Elt F) (View.write (Elt F) (sI : Memref sig .scVector .vmem S128 .i32).view fs (tile_body.sl.dma0 d L fi) Finset.univ)) x _ _
    · exact piece_eq L 4 (by omega) _ ((sI : Memref sig .scVector .vmem S128 .i32).view.read (Elt F) (View.write (Elt F) (sI : Memref sig .scVector .vmem S128 .i32).view fs (tile_body.sl.dma0 d L fi) Finset.univ)) x _ _
    · exact piece_eq L 3 (by omega) _ ((sI : Memref sig .scVector .vmem S128 .i32).view.read (Elt F) (View.write (Elt F) (sI : Memref sig .scVector .vmem S128 .i32).view fs (tile_body.sl.dma0 d L fi) Finset.univ)) x _ _
    · exact piece_eq L 2 (by omega) _ ((sI : Memref sig .scVector .vmem S128 .i32).view.read (Elt F) (View.write (Elt F) (sI : Memref sig .scVector .vmem S128 .i32).view fs (tile_body.sl.dma0 d L fi) Finset.univ)) x _ _
    · exact piece_eq L 1 (by omega) _ ((sI : Memref sig .scVector .vmem S128 .i32).view.read (Elt F) (View.write (Elt F) (sI : Memref sig .scVector .vmem S128 .i32).view fs (tile_body.sl.dma0 d L fi) Finset.univ)) x _ _
    · exact piece_eq L 0 (by omega) _ ((sI : Memref sig .scVector .vmem S128 .i32).view.read (Elt F) (View.write (Elt F) (sI : Memref sig .scVector .vmem S128 .i32).view fs (tile_body.sl.dma0 d L fi) Finset.univ)) x _ _
  have hsrc : ∀ y, (tile_body.sl.dma0 d L fi y).toNat ≤ 199 := fun y => hpos _
  have hin : ∀ x, ((sI : Memref sig .scVector .vmem S128 .i32).view.read (Elt F) ((sI : Memref sig .scVector .vmem S128 .i32).view.writes (Elt F) (sI : Memref sig .scVector .vmem S128 .i32).view.junk (tile_body.sl.Hs_8 d L fi fs)) x).toNat
      < S819200x128.size gathers_S819200x128_S128x128.axis := by
    intro x; rw [hG x]; exact newIdx_lt L _ x (hsrc x)
  sl_exec
  sl_step
  -- what was copied out, on the tile's rows of the result
  have hval : ∀ i ∈ (oSl L).view.set, (oSl L).view.writes (Elt F) fo [⟨Rect.whole S128x128, tile_body.sl.dma0_1 d L ft fi fs fr hin⟩] i
      = (Cert.Spec.pickedRows ft fi : Buf (Elt F) (oLoc d)) i := by
    intro i hi
    obtain ⟨y, -, rfl⟩ := Finset.mem_map.mp hi
    have h1 := View.read_writes_cons_emb (oSl L).view fo (Rect.whole S128x128) (tile_body.sl.dma0_1 d L ft fi fs fr hin) [] y
    rw [Rect.emb_whole_apply] at h1
    refine (show _ = (oSl L).view.read (Elt F) _ y from rfl).trans (h1.trans ?_)
    have h2 : tile_body.sl.dma0_1 d L ft fi fs fr hin y = tile_body.sl.gather0 d L ft fi fs hin y := by
      have h := View.read_writes_cons_emb (sR : Memref sig .scVector .vmem S128x128 .f32).view fr (Rect.whole S128x128) (tile_body.sl.gather0 d L ft fi fs hin) [] y
      rw [Rect.emb_whole_apply] at h
      exact h
    rw [h2]
    exact gathered_eq d L ft fi hpos _ (tile_body.sl.dma0 d L fi) hG (fun _ => rfl) _ hin y
  ihave Ho := (Entails.of_eq (pointsTo_congr hval)) $$ Ho
  ihave Ho := (Entails.of_eq (pts_oSl (F := F) d L _)) $$ Ho
  ihave Hi := (Entails.of_eq (pts_iSl (F := F) d L fi)) $$ Hi
  ihave Ht := (Entails.of_eq (pts_tab (F := F) d L q ft)) $$ Ht
  ihave Hs := (Entails.of_eq (pts_sI (F := F) d L _)) $$ Hs
  ihave Hr := (Entails.of_eq (pts_sR (F := F) d L _)) $$ Hr
  isplitl [Ht Hi Ho]
  · isplitl [Ht]; · iexact Ht
    isplitl [Hi]; · iexact Hi
    iexact Ho
  isplitl [Hs Hr Hbufs]
  · isplitl [Hs Hr]
    · isplitl [Hs]
      · iexists _; iexact Hs
      · iexists _; iexact Hr
    · iexact Hbufs
  isplitl [Hs2 Hs0 Hs1 Hsems]
  · isplitl [Hs2 Hs0 Hs1]
    · isplitl [Hs2]; · iexact Hs2
      isplitl [Hs0]; · iexact Hs0
      iexact Hs1
    · iexact Hsems
  iexists (insert (SemLoc.dma cc0_scoped1.sem, none) (insert (SemLoc.dma cc0_scratch2.sem, none) (insert (SemLoc.dma cc0_scoped0.sem, none) W))); isplitr
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact .inl hp
  · iexact HO

end Cert.Proof.KernelIdealFrame

end
-- ==== Proof.KILaunch.lean ====
/-
  The launch: from one tile's task to the run of the whole device.

  @main on the TensorCore re-lays the input array as the table of 819200 rows, starts both SparseCores on the one
  kernel call and waits for them. The call hands SparseCore c a read token of the table and the sixteen parts of the
  index list and of the result that belong to its tiles (part 2 i + c to tile i); each SparseCore hands tile i a
  token of its token and that tile's two parts. The parts are pairwise disjoint and cover their arrays, so the
  arrays split into them and, coming back with every tile's rows of the result at the one whole-array function, join
  into the result at that function with the index list and the input array untouched.
-/
import proofs.«207438_g72335839200081_cont_9to1_m_70_8_alg».proof.Proof.KIBody

noncomputable section

namespace Cert.Proof.KernelIdealFrame

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.Transfers (tileNo tileNo_val tileNo_inj pointsTo_tiles tileParts_disjoint tileParts_cover shareTok shareDrop)

variable {F : FTy → Type}

local notation "𝕄" => MT nD τ sig (HIx 1) (Elt F) ℕ UU ℕ

variable (m : (ℓ : Loc nD τ sig) → Buf (Elt F) ℓ) (ρ : Dev nD → PrngReg)

/-! ## The table, the result, what is asked of the index list -/

/-- The table: the input array re-laid as 819200 rows of 128 numbers. -/
def tabOf (d : Dev nD) : Buf (Elt F) (tLoc d) :=
  shapeCast S819200x128 (m (sLoc d)) shapeCasts_S4096x200x128_S819200x128
/-- The result: row b is the table's row 200 b + pos b. -/
def outOf (d : Dev nD) : Buf (Elt F) (oLoc d) := Cert.Spec.pickedRows (tabOf m d) (m (iLoc d))

/-- What the proof asks of the launch memory: every word of the index list is at most 199. -/
def PosOK : Prop := ∀ (d : Dev nD) (b : S4096.Idx), (m (iLoc d) b).toNat ≤ 199

/-! ## What the handshakes carry -/

abbrev c2 (c : Fin ((K (F := F)).nCore 0)) : Fin 2 := Fin.cast nCore_zero c
abbrev i16 (i : Fin ((K (F := F)).nSub 0)) : Fin 16 := Fin.cast nSub_zero i

/-- SparseCore c's read token of the table, and tile i's token of it. -/
abbrev tokC (c : Fin 2) : PosShare TreeShare := shareTok fullShare 2 c
abbrev tokT (c : Fin 2) (i : Fin 16) : PosShare TreeShare := shareTok (tokC c) 16 i

abbrev iPts (d : Dev nD) (t : Fin 32) : sProp 𝕄 := iLoc d ↦[iSet t]{fullShare} m (iLoc d)
abbrev oPts (d : Dev nD) (t : Fin 32) (f : Buf (Elt F) (oLoc d)) : sProp 𝕄 := oLoc d ↦[oSet t]{fullShare} f

/-- A tile's operands: its token of the table, its part of the index list, its part of the result at `f`. -/
abbrev tileRes (d : Dev nD) (c : Fin 2) (i : Fin 16) (f : Buf (Elt F) (oLoc d)) : sProp 𝕄 :=
  iprop((tLoc d ↦{tokT c i} tabOf m d) ∗ iPts m d (tileNo c i) ∗ oPts d (tileNo c i) f)
/-- A SparseCore's operands: its token of the table, its tiles' parts. -/
abbrev coreRes (d : Dev nD) (c : Fin 2) (f : Buf (Elt F) (oLoc d)) : sProp 𝕄 :=
  iprop((tLoc d ↦{tokC c} tabOf m d) ∗ (bigSep Finset.univ fun i : Fin 16 => iPts m d (tileNo c i))
    ∗ bigSep Finset.univ fun i : Fin 16 => oPts d (tileNo c i) f)

/-- The one call: each SparseCore its operands with the result at the launch contents, back with the result at
    `outOf`; each tile likewise. -/
def P : (K (F := F)).Pay (nD := nD) (Val := Elt F) (Name := ℕ) (U := UU) where
  st := fun q d c => match q with | 0 => coreRes m d (c2 c) (m (oLoc d))
  dn := fun q d c => match q with | 0 => coreRes m d (c2 c) (outOf m d)
  go := fun q d c i => match q with | 0 => tileRes m d (c2 c) (i16 i) (m (oLoc d))
  td := fun q d c i => match q with | 0 => tileRes m d (c2 c) (i16 i) (outOf m d)
  x := fun _ _ => iprop(emp)

instance P_storable : (P (F := F) m).IsStorable where
  st q d c := match q with
    | 0 => (inferInstance : BI.Storable (upEmb : UEmb _ 𝕄) (coreRes m d (c2 c) (m (oLoc d))))
  dn q d c := match q with
    | 0 => (inferInstance : BI.Storable (upEmb : UEmb _ 𝕄) (coreRes m d (c2 c) (outOf m d)))
  go q d c i := match q with
    | 0 => (inferInstance : BI.Storable (upEmb : UEmb _ 𝕄) (tileRes m d (c2 c) (i16 i) (m (oLoc d))))
  td q d c i := match q with
    | 0 => (inferInstance : BI.Storable (upEmb : UEmb _ 𝕄) (tileRes m d (c2 c) (i16 i) (outOf m d)))

variable [FloatOps F]

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_rows (coordsV c s)
          tabV (Memref.isWhole_whole _) idxV (Memref.isWhole_whole _) outV (Memref.isWhole_whole _)
          sI (Memref.isWhole_whole _) sR (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpos : PosOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF O W hO (tokT (c2 c) (i16 i)) (tabOf m d) (m (iLoc d)) (m (oLoc d)) (hpos d)).trans
    (wp_mono frame _ _ fun _ => obl_post)

/-! ## A SparseCore's operands split among its tiles -/

omit [FloatOps F] in
theorem bigSep_tasks (Φ : Fin 16 → sProp 𝕄) :
    (bigSep Finset.univ fun i : Fin ((K (F := F)).nSub 0) => Φ (i16 i)) = bigSep Finset.univ Φ :=
  bigSep_congr fun _ _ => congrArg Φ (Fin.ext rfl)

theorem vecSplit : (K (F := F)).VecSplit' (P m) 0 := by
  intro d c
  show coreRes m d (c2 c) (m (oLoc d)) ⊢ |={Set.univ}=> iprop(
      (bigSep Finset.univ fun i : Fin ((K (F := F)).nSub 0) => tileRes m d (c2 c) (i16 i) (m (oLoc d)))
      ∗ ((bigSep Finset.univ fun i : Fin ((K (F := F)).nSub 0) => tileRes m d (c2 c) (i16 i) (outOf m d))
          -∗ coreRes m d (c2 c) (outOf m d)))
  rw [bigSep_tasks (F := F) (fun i => tileRes m d (c2 c) i (m (oLoc d))), bigSep_tasks (F := F) (fun i => tileRes m d (c2 c) i (outOf m d)),
    bigSep_sep', bigSep_sep', bigSep_sep', bigSep_sep']
  iintro ⟨Ht, Hi, Ho⟩
  ihave Ht' := (Transfers.pointsTo_toks_split (tokC (c2 c)) 16) $$ Ht
  icases Ht' with ⟨Hd, Htoks⟩
  imodintro
  isplitl [Htoks Hi Ho]
  · isplitl [Htoks]; · iexact Htoks
    isplitl [Hi]; · iexact Hi
    iexact Ho
  iintro ⟨Htoks, Hi, Ho⟩
  isplitl [Hd Htoks]
  · iapply (Transfers.pointsTo_toks_join (tokC (c2 c)) 16)
    isplitl [Hd]; · iexact Hd
    iexact Htoks
  isplitl [Hi]; · iexact Hi
  iexact Ho

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays dealt to the two SparseCores -/

omit [FloatOps F] in
theorem iSet_eq (t : Fin 32) : iSet t = (iPart t).set := by
  show ((View.whole (main_arg1_scv : Ref sig .scVector)).slice (iPart t)).set = _
  rw [View.set_slice]; exact Finset.map_refl
omit [FloatOps F] in
theorem oSet_eq (t : Fin 32) : oSet t = (oPart t).set := by
  show ((View.whole (main_v1_scv : Ref sig .scVector)).slice (oPart t)).set = _
  rw [View.set_slice]; exact Finset.map_refl

omit [FloatOps F] in
theorem iSets_disjoint : ∀ (c : Fin 2) (i : Fin 16) (c' : Fin 2) (i' : Fin 16), (c, i) ≠ (c', i') → Disjoint (iSet (tileNo c i)) (iSet (tileNo c' i')) :=
  fun c i c' i' h => by rw [iSet_eq, iSet_eq]; exact tileParts_disjoint hdivI c i c' i' h
omit [FloatOps F] in
theorem oSets_disjoint : ∀ (c : Fin 2) (i : Fin 16) (c' : Fin 2) (i' : Fin 16), (c, i) ≠ (c', i') → Disjoint (oSet (tileNo c i)) (oSet (tileNo c' i')) :=
  fun c i c' i' h => by rw [oSet_eq, oSet_eq]; exact tileParts_disjoint hdivO c i c' i' h
omit [FloatOps F] in
theorem iSets_cover (x : S4096.Idx) : ∃ (c : Fin 2) (i : Fin 16), x ∈ iSet (tileNo c i) := by
  obtain ⟨c, i, h⟩ := tileParts_cover hdivI x
  exact ⟨c, i, by rw [iSet_eq]; exact h⟩
omit [FloatOps F] in
theorem oSets_cover (x : S4096x128.Idx) : ∃ (c : Fin 2) (i : Fin 16), x ∈ oSet (tileNo c i) := by
  obtain ⟨c, i, h⟩ := tileParts_cover hdivO x
  exact ⟨c, i, by rw [oSet_eq]; exact h⟩

/-- The table, the index list and the result (at `f`) held whole are the share of the table the dealer keeps and
    the two SparseCores' operands. -/
theorem deal (d : Dev nD) (f : Buf (Elt F) (oLoc d)) :
    (iprop((tLoc d ↦{fullShare} tabOf m d) ∗ (iLoc d ↦{fullShare} m (iLoc d)) ∗ (oLoc d ↦{fullShare} f)) : sProp 𝕄)
      ⊣⊢ iprop((tLoc d ↦{shareDrop fullShare 2} tabOf m d) ∗ bigSep Finset.univ fun c : Fin 2 => coreRes m d c f) := by
  rw [pointsTo_tiles (ℓ := iLoc d) (q := fullShare) (fun c i => iSet (tileNo c i)) iSets_disjoint iSets_cover (m (iLoc d)),
    pointsTo_tiles (ℓ := oLoc d) (q := fullShare) (fun c i => oSet (tileNo c i)) oSets_disjoint oSets_cover f,
    bigSep_sep', bigSep_sep']
  constructor
  · iintro ⟨Ht, Hi, Ho⟩
    ihave Ht' := (Transfers.pointsTo_toks_split fullShare 2) $$ Ht
    icases Ht' with ⟨Hd, Htoks⟩
    isplitl [Hd]; · iexact Hd
    isplitl [Htoks]; · iexact Htoks
    isplitl [Hi]; · iexact Hi
    iexact Ho
  · iintro ⟨Hd, Htoks, Hi, Ho⟩
    isplitl [Hd Htoks]
    · iapply (Transfers.pointsTo_toks_join fullShare 2)
      isplitl [Hd]; · iexact Hd
      iexact Htoks
    isplitl [Hi]; · iexact Hi
    iexact Ho

omit [FloatOps F] in
theorem bigSep_cores (Φ : Fin 2 → sProp 𝕄) :
    (bigSep Finset.univ fun c : Fin ((K (F := F)).nCore 0) => Φ (c2 c)) = bigSep Finset.univ Φ :=
  bigSep_congr fun _ _ => congrArg Φ (Fin.ext rfl)

theorem st0_eq (d : Dev nD) :
    (bigSep Finset.univ fun c : Fin ((K (F := F)).nCore 0) => (P m).st 0 d c) = bigSep Finset.univ fun c : Fin 2 => coreRes m d c (m (oLoc d)) :=
  bigSep_cores (F := F) (fun c => coreRes m d c (m (oLoc d)))
theorem dn0_eq (d : Dev nD) :
    (bigSep Finset.univ fun c : Fin ((K (F := F)).nCore 0) => (P m).dn 0 d c) = bigSep Finset.univ fun c : Fin 2 => coreRes m d c (outOf m d) :=
  bigSep_cores (F := F) (fun c => coreRes m d c (outOf m d))

/-! ## @main on the TensorCore -/

abbrev s' : DevRef τ sig := Proc.devRef .tc (main_arg0 : Ref sig .tc)
abbrev i' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
/-- The re-laying of the input array as the table. -/
abbrev opRe : HloOp τ sig (Elt F) := StableHlo.reshape main_arg0 main_v0 rfl shapeCasts_S4096x200x128_S819200x128

/-- The TensorCore's arrays, all unscoped. -/
abbrev S4 : Finset (DevRef τ sig) := {s', i', t', o'}

omit [FloatOps F] in
theorem held_S4 (d : Dev nD) (W : Valuation τ sig (Elt F)) :
    (held (T d) S4 W : sProp 𝕄) = iprop((sLoc d ↦{fullShare} W s') ∗ (iLoc d ↦{fullShare} W i') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((sLoc d ↦{fullShare} W main_arg0) ∗ (iLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hRe : (opRe (F := F)).bufs ⊆ S4 := show ({s', t'} : Finset (DevRef τ sig)) ⊆ S4 by decide

theorem res_s (d : Dev nD) : (opRe (F := F)).result (V0 m d) s' = m (sLoc d) :=
  (opRe (F := F)).result_of_not_mem (V0 m d) (b := s') (show s' ∉ ({t'} : Finset (DevRef τ sig)) by decide)
theorem res_i (d : Dev nD) : (opRe (F := F)).result (V0 m d) i' = m (iLoc d) :=
  (opRe (F := F)).result_of_not_mem (V0 m d) (b := i') (show i' ∉ ({t'} : Finset (DevRef τ sig)) by decide)
theorem res_o (d : Dev nD) : (opRe (F := F)).result (V0 m d) o' = m (oLoc d) :=
  (opRe (F := F)).result_of_not_mem (V0 m d) (b := o') (show o' ∉ ({t'} : Finset (DevRef τ sig)) by decide)
theorem res_t (d : Dev nD) : (opRe (F := F)).result (V0 m d) t' = tabOf m d :=
  (StableHlo.reshape_result _ _ _ _ _ _ _).trans rfl

/-- What @main leaves the claim: the input array and the index list at their launch contents, the result at `outOf`. -/
abbrev FIN (d : Dev nD) : sProp 𝕄 :=
  iprop((sLoc d ↦{fullShare} m (sLoc d)) ∗ (iLoc d ↦{fullShare} m (iLoc d)) ∗ (oLoc d ↦{fullShare} outOf m d))

/-- @main on device `d`'s TensorCore: the re-laying, then the one call from the table, the index list and the result
    dealt to the two SparseCores, joined again at its return. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opRe) (S := S4) hRe (V := V0 m d)) $$ [Hb Hheld]
  · isplitl [Hb]; · iexact Hb
    iexact Hheld
  iintro ⟨Hb, Hheld⟩
  ihave Hh := (Entails.of_eq (held_S4 (F := F) d _)) $$ Hheld
  rw [res_s, res_i, res_t, res_o]
  icases Hh with ⟨Hs, Hi, Ht, Ho⟩
  rw [wp_ret]; imodintro
  -- the table, the index list and the result dealt to the two SparseCores; the dealer keeps a share of the table
  ihave Hall := (deal m d (m (oLoc d))).1 $$ [Ht Hi Ho]
  · isplitl [Ht]; · iexact Ht
    isplitl [Hi]; · iexact Hi
    iexact Ho
  icases Hall with ⟨Hd, Hcores⟩
  iapply ((K (F := F)).wp_run (D (F := F)) 𝒱 (EH := EH) (P := P m) κ d 0) $$ [Hst Hcores Hd Hs]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hall := (deal m d (outOf m d)).2 $$ [Hd Hdn']
  · isplitl [Hd]; · iexact Hd
    iexact Hdn'
  icases Hall with ⟨-, Hi, Ho⟩
  imodintro
  isplitl [Hst]; · iexact Hst
  isplitl [Hs]; · iexact Hs
  isplitl [Hi]; · iexact Hi
  iexact Ho

/-! ## Reading the claim off the final memory -/

def fq (d : Dev nD) (s' : Phys nD τ sig (Elt F)) : Prop :=
  s'.mem.mem (sLoc d) = m (sLoc d) ∧ s'.mem.mem (iLoc d) = m (iLoc d) ∧ s'.mem.mem (oLoc d) = outOf m d

theorem hfin (d : Dev nD) (s' : Phys nD τ sig (Elt F)) : iprop(FIN m d ∗ SI s') ⊢ (⌜fq m d s'⌝ : sProp 𝕄) := by
  iintro ⟨⟨Hs, Hi, Ho⟩, HSI⟩
  ihave H := (persistent_entails_right (SI_pointsTo_agree (st := s') (ℓ := sLoc d) (I := Finset.univ) (q := fullShare) (f := m (sLoc d)))) $$ [HSI Hs]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := outOf m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The result at `outOf`; the input array and the index list unchanged. -/
def QC : PUnit × MemSt nD τ sig (Elt F) → Prop := fun r =>
  ∀ c : Dev nD, r.2.mem (oLoc c) = outOf m c ∧ r.2.mem (sLoc c) = m (sLoc c) ∧ r.2.mem (iLoc c) = m (iLoc c)

/-- Every weakly fair execution of the device's thirty-five threads from `m` terminates, nothing faulting, with the
    result at `outOf` and the arguments unchanged — when every word of the index list is at most 199. -/
theorem run_main [∀ e, Nonempty (Elt F e)] (hpos : PosOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpos)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun _ h c => ⟨(h c).2.2, (h c).1, (h c).2.1⟩)

end Cert.Proof.KernelIdealFrame

end
-- ==== Proof.PreRange.lean ====
/-
  The precondition read back at one batch entry: the second conjunct of the printed
  predicate says that every word of the index array, read signed, lies in [0, 199];
  a word that is non-negative read signed reads the same unsigned, so it is at most 199
  read unsigned.
-/
import proofs.«207438_g72335839200081_cont_9to1_m_70_8_alg».proof.Proof.Gen.Pre_input_domain
import Idealize.ShloMosaic.Lib.ReduceAll
import Idealize.ShloMosaic.Lib.ValueIdx

namespace Cert.PreRange

open Idealize.ShloMosaic

/-- The rank-0 shape has one index. -/
instance subsingletonScalarIdx : Subsingleton Cert.Pre_input_domain.S_.Idx :=
  ⟨fun a b => funext fun d => d.elim0⟩

/-- A 32-bit word between 0 and 199 read signed is at most 199 read unsigned. -/
theorem toNat_le_of_toInt {x : BitVec 32} (h0 : 0 ≤ x.toInt) (h1 : x.toInt ≤ 199) : x.toNat ≤ 199 := by
  have := BitVec.toInt_eq_toNat_cond x
  split at this <;> omega

/-- Under the precondition every index word is at most 199 read unsigned. -/
theorem pos_le {F : FTy → Type} [FloatOps F] (a0 : FVec F Cert.Pre_input_domain.S4096x200x128 .f32)
    (a1 : IVec Cert.Pre_input_domain.S4096 32)
    (h : Cert.Pre_input_domain.fn (F := F) a0 a1 = fun _ => 1#1) :
    ∀ b : Cert.Pre_input_domain.S4096.Idx, (a1 b).toNat ≤ 199 := by
  intro b
  have h0 := congrFun h ValueIdx.ix0
  dsimp only [Cert.Pre_input_domain.fn] at h0
  have h1 := (IntOp.andi_eq_one.1 h0).2
  have h2 := Host.reduce_andi_all _ _ _ _ _ h1 b
  obtain ⟨hge, hle⟩ := IntOp.andi_eq_one.1 h2
  have hge' : (0#32 : BitVec 32).toInt ≤ (a1 b).toInt := IntOp.cmpi_sge.1 hge
  have hle' : (a1 b).toInt ≤ (199#32 : BitVec 32).toInt := IntOp.cmpi_sle.1 hle
  rw [show (0#32 : BitVec 32).toInt = 0 from by decide] at hge'
  rw [show (199#32 : BitVec 32).toInt = 199 from by decide] at hle'
  exact toNat_le_of_toInt hge' hle'

end Cert.PreRange
-- ==== Proof.RefValue.lean ====
/-
  The reference's result is the shared specification.

  The reference gathers, for result index (b, c), the operand at a start index of two components read off a
  [4096, 2] array of words: column 0 holds batch b's own number (an iota, wrapped by +4096 where negative, which it
  never is), column 1 holds the batch's index word (wrapped by +200 where negative, which under the stated domain it
  never is). The gather reads each component signed and clamps it into [0, size - slice size]; both components
  already lie there (b < 4096, word ≤ 199), so the operand index is (b, word, c), and the row the specification
  names, word mod 200, is the word itself.
-/
import proofs.«207438_g72335839200081_cont_9to1_m_70_8_alg».proof.Proof.Gen.ReferenceIdeal.Read
import proofs.«207438_g72335839200081_cont_9to1_m_70_8_alg».proof.Proof.Spec

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-! ## Words -/

/-- A word below 2^31 built from a number reads, signed, as that number. -/
theorem toInt_ofNat_small {n : Nat} (h : n < 2 ^ 31) : (BitVec.ofNat 32 n).toInt = (n : Int) := by
  have hn : (BitVec.ofNat 32 n).toNat = n := by rw [BitVec.toNat_ofNat]; omega
  rw [BitVec.toInt_eq_toNat_of_lt (by rw [hn]; omega), hn]

/-- A word at most 199 read unsigned reads the same signed. -/
theorem toInt_of_le {x : BitVec 32} (h : x.toNat ≤ 199) : x.toInt = (x.toNat : Int) :=
  BitVec.toInt_eq_toNat_of_lt (by omega)

/-- The signed test "below zero" of a word that reads non-negative is the bit 0. -/
theorem slt_zero_of_nonneg {x : BitVec 32} (h : 0 ≤ x.toInt) : IntOp.cmpi .slt x 0#32 = 0#1 :=
  eq_zero_of_ne_one fun e => by
    have := IntOp.cmpi_slt.1 e
    rw [show (0#32 : BitVec 32).toInt = 0 from by decide] at this
    omega

/-! ## The two columns of the start indices -/

/-- The batch column: batch b's own number (never negative, so the wrap by 4096 is not taken). -/
theorem batch_word (b : Fin 4096) : val_main_v5 (F := F) (ix1 b) = BitVec.ofNat 32 b.val := by
  rw [val_main_v5_apply, val_main_v2_apply, val_main_v1_apply, val_main_c_apply, val_main_v0_apply]
  show Scalar.select (IntOp.cmpi .slt (BitVec.ofNat 32 b.val) 0#32) _ (BitVec.ofNat 32 b.val) = _
  rw [slt_zero_of_nonneg (by rw [toInt_ofNat_small (by omega)]; omega), select_zero]

/-- The row column: a word that reads non-negative is kept (the wrap by 200 is not taken). -/
theorem row_word (x1 : (⟨S4096, .i32⟩ : BufTy).Contents (Elt F)) (i : S4096.Idx) (h : 0 ≤ (x1 i).toInt) :
    val_main_v10 (F := F) x1 i = x1 i := by
  rw [val_main_v10_apply, val_main_v7_apply, val_main_v6_apply, val_main_c_1_apply, slt_zero_of_nonneg h, select_zero]

/-- The start indices' first column. -/
theorem start_fst (x1 : (⟨S4096, .i32⟩ : BufTy).Contents (Elt F)) (b : Fin 4096) :
    val_main_v13 (F := F) x1 (ix2 b (0 : Fin 2)) = BitVec.ofNat 32 b.val := by
  unfold val_main_v13
  rw [concatenate_pair_apply_left (s₁ := S4096x1) (s₂ := S4096x1) (1 : Fin S4096x2.rank) _ _ _ (ix2 b (0 : Fin 2)) rfl (ix2 b (0 : Fin 1))
    (fun a => by match a with | ⟨0, _⟩ => rfl | ⟨1, _⟩ => rfl)]
  rw [val_main_v11_apply]
  rw [show idx_main_v11 (ix2 b (0 : Fin 1)) = ix1 b from by funext a; match a with | ⟨0, _⟩ => rfl]
  exact batch_word b

/-- The start indices' second column. -/
theorem start_snd (x1 : (⟨S4096, .i32⟩ : BufTy).Contents (Elt F)) (b : Fin 4096) (h : 0 ≤ (x1 (ix1 b)).toInt) :
    val_main_v13 (F := F) x1 (ix2 b (1 : Fin 2)) = x1 (ix1 b) := by
  unfold val_main_v13
  rw [concatenate_pair_apply_right (s₁ := S4096x1) (s₂ := S4096x1) (1 : Fin S4096x2.rank) _ _ _ (ix2 b (1 : Fin 2)) rfl rfl (ix2 b (0 : Fin 1))
    (fun a ha => by match a with | ⟨0, _⟩ => rfl | ⟨1, _⟩ => exact absurd rfl ha) rfl]
  rw [val_main_v12_apply]
  rw [show idx_main_v12 (ix2 b (0 : Fin 1)) = ix1 b from by funext a; match a with | ⟨0, _⟩ => rfl]
  exact row_word x1 (ix1 b) h

/-! ## The gather read at an index -/

/-- The gather's dimension numbers. -/
abbrev D : GatherDims S4096x200x128 S4096x2 S4096x128 := gather_S4096x200x128_S4096x2_S4096x128_1_01_n_n_01_1_11128

theorem map0 : (0 : Fin 3) ∈ D.startIndexMap := List.mem_cons_self ..
theorem map1 : (1 : Fin 3) ∈ D.startIndexMap := List.mem_cons_of_mem _ (List.mem_cons_self ..)
theorem coll0 : (0 : Fin 3) ∈ D.collapsedSliceDims := List.mem_cons_self ..
theorem coll1 : (1 : Fin 3) ∈ D.collapsedSliceDims := List.mem_cons_of_mem _ (List.mem_cons_self ..)
theorem noBatching (a : Fin 3) : a ∉ D.operandBatchingDims := List.not_mem_nil

/-- Result index (b, c) reads component k of its start index at (b, k) of the start indices. -/
theorem siIdx_eq (b : Fin 4096) (c : Fin 128) (v : Nat) (hv : v < D.startIndexMap.length) (k : Fin 2) (hk : v = k.val) :
    D.siIdx (ix2 b c) ⟨v, hv⟩ = ix2 b k := by
  subst hk
  funext a
  refine Fin.ext ?_
  match a with
  | ⟨0, _⟩ => rfl
  | ⟨1, _⟩ => rfl

/-- The start of the slice on an axis the start index map names: the component read signed, clamped. -/
theorem start_of_mem (j : S4096x128.Idx) (idx : IVec S4096x2 32) (a : Fin 3) (ha : a ∈ D.startIndexMap) :
    D.start j idx a = min (idx (D.siIdx j ⟨D.startIndexMap.idxOf a, List.idxOf_lt_length_iff.2 ha⟩)).toInt.toNat
      (S4096x200x128.size a - D.sliceSizes a) := by
  unfold GatherDims.start
  rw [dif_pos ha]

/-- The start of the slice on the axis the start index map names in position k: component k, read signed, clamped. -/
theorem start_eq (b : Fin 4096) (c : Fin 128) (idx : IVec S4096x2 32) (a : Fin 3) (k : Fin 2) (ha : a ∈ D.startIndexMap)
    (hk : D.startIndexMap.idxOf a = k.val) :
    D.start (ix2 b c) idx a = min (idx (ix2 b k)).toInt.toNat (S4096x200x128.size a - D.sliceSizes a) := by
  rw [start_of_mem _ _ _ ha, siIdx_eq b c _ _ k hk]

/-- The operand index the gather reads at result index (b, c), given the two start-index components there. -/
theorem operandIdx_eq (idx : IVec S4096x2 32) (b : Fin 4096) (c : Fin 128) (r0 : Fin 4096) (r1 : Fin 200)
    (h0 : (idx (ix2 b (0 : Fin 2))).toInt.toNat = r0.val) (h1 : (idx (ix2 b (1 : Fin 2))).toInt.toNat = r1.val) :
    D.operandIdx (ix2 b c) idx = ix3 r0 r1 c := by
  funext a
  refine Fin.ext ?_
  match a with
  | ⟨0, _⟩ =>
    show D.start (ix2 b c) idx 0 + D.batchCoord (ix2 b c) 0 + D.offCoord (ix2 b c) 0 = r0.val
    rw [GatherDims.batchCoord_eq_zero D _ _ (noBatching 0),
      GatherDims.offCoord_eq_zero D _ _ (fun h => ((GatherDims.mem_sKept D _).mp h).1 coll0),
      start_eq b c idx 0 0 map0 rfl, h0]
    show min r0.val (4096 - 1) + 0 + 0 = r0.val
    have := r0.isLt; omega
  | ⟨1, _⟩ =>
    show D.start (ix2 b c) idx 1 + D.batchCoord (ix2 b c) 1 + D.offCoord (ix2 b c) 1 = r1.val
    rw [GatherDims.batchCoord_eq_zero D _ _ (noBatching 1),
      GatherDims.offCoord_eq_zero D _ _ (fun h => ((GatherDims.mem_sKept D _).mp h).1 coll1),
      start_eq b c idx 1 1 map1 rfl, h1]
    show min r1.val (200 - 1) + 0 + 0 = r1.val
    have := r1.isLt; omega
  | ⟨2, _⟩ =>
    show 0 + 0 + c.val = c.val
    omega

/-! ## The reference's result -/

/-- Where every word is at most 199 the reference's result is the shared specification: at (b, c) the gather reads
    the operand at batch b's own number, at the row the word names, at c — both start-index components lie inside
    their axes, so neither wrap is taken and the clamp changes nothing. -/
theorem result_eq (x0 : (⟨S4096x200x128, .f32⟩ : BufTy).Contents (Elt F)) (x1 : (⟨S4096, .i32⟩ : BufTy).Contents (Elt F))
    (h : ∀ b, (x1 b).toNat ≤ 199) :
    val_main_v14 (F := F) x0 x1 = Cert.Spec.picked x0 x1 := by
  funext j
  obtain ⟨b, c, rfl⟩ : ∃ (b : Fin 4096) (c : Fin 128), j = ix2 b c := ⟨j 0, j 1, eq_ix2 j⟩
  have hb := h (ix1 b)
  have h0 : (val_main_v13 (F := F) x1 (ix2 b (0 : Fin 2))).toInt.toNat = b.val := by
    rw [start_fst, toInt_ofNat_small (by have := b.isLt; omega)]; rfl
  have h1 : (val_main_v13 (F := F) x1 (ix2 b (1 : Fin 2))).toInt.toNat = (Cert.Spec.rowOfWord (x1 (ix1 b))).val := by
    rw [start_snd x1 b (by rw [toInt_of_le hb]; omega), toInt_of_le hb, Cert.Spec.rowOfWord_val_of_le hb]; rfl
  rw [Cert.Spec.picked_apply]
  show x0 (D.operandIdx (ix2 b c) (val_main_v13 (F := F) x1)) = _
  rw [operandIdx_eq (val_main_v13 (F := F) x1) b c b (Cert.Spec.rowOfWord (x1 (ix1 b))) h0 h1]

end Cert.ReferenceIdeal.RefValue

end
-- ==== Proof.Relaid.lean ====
/-
  The table of rows is the three-axis array laid out row-major: table row 200 b + p, column c, is the array's entry
  (b, p, c) for p < 200, both sitting at position (200 b + p) · 128 + c. So reading the result's rows off the re-laid
  array is reading them off the array itself.
-/
import proofs.«207438_g72335839200081_cont_9to1_m_70_8_alg».proof.Proof.Spec
import Idealize.ShloMosaic.Lib.Pipeline.Value

namespace Cert.Spec

open Idealize.ShloMosaic Idealize.ShloMosaic.ValueIdx

/-- The rows picked from the three-axis array re-laid as a table are the rows picked from the array. -/
theorem pickedRows_shapeCast {α : Type} (seq : (⟨3, ![4096, 200, 128]⟩ : Shape).Idx → α)
    (pos : (⟨1, ![4096]⟩ : Shape).Idx → BitVec 32)
    (hc : (⟨3, ![4096, 200, 128]⟩ : Shape).ShapeCasts (⟨2, ![819200, 128]⟩ : Shape)) :
    pickedRows (shapeCast (⟨2, ![819200, 128]⟩ : Shape) seq hc) pos = picked seq pos := by
  funext x
  obtain ⟨b, c, rfl⟩ : ∃ (b : Fin 4096) (c : Fin 128), x = ix2 b c := ⟨x 0, x 1, eq_ix2 x⟩
  rw [picked_apply]
  show shapeCast (⟨2, ![819200, 128]⟩ : Shape) seq hc (ix2 (tableRow b (pos (ix1 b))) c) = _
  refine shapeCast_apply seq hc _ (ix3 b (rowOfWord (pos (ix1 b))) c) ?_
  rw [Shape.rowMajor_val_three, Shape.rowMajor_val_two]
  show (b.val * 200 + (rowOfWord (pos (ix1 b))).val) * 128 + c.val
    = (b.val * 200 + (rowOfWord (pos (ix1 b))).val) * 128 + c.val
  rfl

end Cert.Spec
-- ==== Proof.lean ====
/-
  The claim: the gather kernel, its idealization and the reference compute one function of the two arguments.

  The kernel (run on the device's TensorCore, two SparseCore sequencers and thirty-two tiles) and the reference (run
  on the TensorCore alone) take a three-axis array seq of 4096 batches of 200 rows of 128 numbers and a list pos of
  4096 integer words, every word between 0 and 199 by the claim's precondition, and return for each batch b row
  pos b of that batch:  result (b, c) = seq (b, pos b, c).
  Kernel side: every weakly fair execution terminates with the result at that function of the launch memory and the
  arguments unchanged, proved once for any float instance (the tile's task, then the launch) and read at the word-level
  instance for the first frame and at the ideal instance for the second frame and the value claim. Reference side: its
  generated run, whose gather reads seq at (b, pos b, c) because no start index is negative or past the last admissible
  one. The two meet in `Cert.Spec.picked`: the kernel reads the table of 819200 rows at row 200 b + pos b, which is
  seq (b, pos b, c) when the three-axis array is re-laid row by row. The idealization rewrote nothing, so
  `preserves` has nothing to state.
-/
import proofs.«207438_g72335839200081_cont_9to1_m_70_8_alg».proof.Defs
import proofs.«207438_g72335839200081_cont_9to1_m_70_8_alg».proof.Proof.Gen.Kernel
import proofs.«207438_g72335839200081_cont_9to1_m_70_8_alg».proof.Proof.Gen.Kernel.Skeleton
import proofs.«207438_g72335839200081_cont_9to1_m_70_8_alg».proof.Proof.Gen.KernelIdeal
import proofs.«207438_g72335839200081_cont_9to1_m_70_8_alg».proof.Proof.Gen.KernelIdeal.Skeleton
import proofs.«207438_g72335839200081_cont_9to1_m_70_8_alg».proof.Proof.Gen.ReferenceIdeal
import proofs.«207438_g72335839200081_cont_9to1_m_70_8_alg».proof.Proof.Gen.Pre_input_domain
import proofs.«207438_g72335839200081_cont_9to1_m_70_8_alg».proof.Proof.Gen.ReferenceIdeal.Read
import proofs.«207438_g72335839200081_cont_9to1_m_70_8_alg».proof.Proof.KLaunch
import proofs.«207438_g72335839200081_cont_9to1_m_70_8_alg».proof.Proof.KILaunch
import proofs.«207438_g72335839200081_cont_9to1_m_70_8_alg».proof.Proof.PreRange
import proofs.«207438_g72335839200081_cont_9to1_m_70_8_alg».proof.Proof.RefValue
import proofs.«207438_g72335839200081_cont_9to1_m_70_8_alg».proof.Proof.Relaid
import Idealize.ShloMosaic.Adequacy
import Idealize.ShloMosaic.Init

noncomputable section

namespace Cert.Proof

open Idealize.ShloMosaic Idealize.SL.Sem

/-- The precondition bounds every word of the index list by 199, for the word-level kernel -/
theorem posOK_kernel (m : (ℓ : Loc Cert.Kernel.nD Cert.Kernel.τ Cert.Kernel.sig) → Buf (Elt Bits) ℓ) (h : Cert.Pre_Kernel m) :
    KernelFrame.PosOK (F := Bits) m :=
  fun d b => Cert.PreRange.pos_le _ _ (h d) b
/-- and for its idealization. -/
theorem posOK_kernelIdeal (m : (ℓ : Loc Cert.KernelIdeal.nD Cert.KernelIdeal.τ Cert.KernelIdeal.sig) → Buf (Elt Ideal) ℓ) (h : Cert.Pre_KernelIdeal m) :
    KernelIdealFrame.PosOK (F := Ideal) m :=
  fun d b => Cert.PreRange.pos_le _ _ (h d) b

theorem frame_k : Cert.frame_Kernel := fun m ρ hpre =>
  (θ_run Cert.Kernel.defs _ _).mono (fun _ h c => ⟨(h c).2.1, (h c).2.2⟩) (KernelFrame.run_main (F := Bits) m ρ (posOK_kernel m hpre))

theorem frame_ki : Cert.frame_KernelIdeal := fun m ρ hpre =>
  (θ_run Cert.KernelIdeal.defs _ _).mono (fun _ h c => ⟨(h c).2.1, (h c).2.2⟩) (KernelIdealFrame.run_main (F := Ideal) m ρ (posOK_kernelIdeal m hpre))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Cert.Spec.picked` of the arguments: the kernel's table row 200 b + pos b is the
    three-axis array's (b, pos b), and the reference's gather reads there. -/
theorem algebraic : Cert.algebraic_KernelIdeal_ReferenceIdeal := by
  intro m ρ m' ρ' hpre hagree
  refine ⟨fun c => KernelIdealFrame.outOf m c, KernelIdealFrame.run_main (F := Ideal) m ρ (posOK_kernelIdeal m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2,
    Cert.ReferenceIdeal.RefValue.result_eq _ _ (posOK_kernelIdeal m hpre c)]
  exact (Cert.Spec.pickedRows_shapeCast _ _ _).symm

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
